-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S256x8x8 : Shape := ⟨3, ![256, 8, 8]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel
  bcast_S_S256x8x8 : S_.BroadcastsInDim S256x8x8 (![] : Fin 0 → Fin S256x8x8.rank)
  reducesTo_S256x8x8_S_d0_1_2 : S256x8x8.ReducesTo [0, 1, 2] S_

variable [Facts]

def fn {F : FTy → Type} [FloatOps F] (main_arg0 : FVec F S64x1x512x512 .f32) (main_arg1 : FVec F S256x8x8 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S256x8x8 .f32 := Host.absf main_arg1
  let main_cst_0 : FVec F S_ .f32 := constant S_ .f32 0x7F800000#32
  let main_v5 : FVec F S256x8x8 .f32 := broadcastInDim S256x8x8 ![] bcast_S_S256x8x8 main_cst_0
  let main_v6 : IVec S256x8x8 1 := cmpf .olt main_v4 main_v5
  let main_c_1 : IVec S_ 1 := constantI S_ 1 1#1
  let main_v7 : IVec S_ 1 := (fun x v => Host.reduce IntOp.andi x v reducesTo_S256x8x8_S_d0_1_2 h_S_) main_v6 main_c_1
  let main_v8 : IVec S_ 1 := andi main_v3 main_v7
  main_v8
-- ==== Kernel.lean ====
abbrev S64x1x512x512 : Shape := ⟨4, ![64, 1, 512, 512]⟩
abbrev S256x8x8 : Shape := ⟨3, ![256, 8, 8]⟩
abbrev S64x1x64x8x64x8 : Shape := ⟨6, ![64, 1, 64, 8, 64, 8]⟩
abbrev S64x64x64x1x8x8 : Shape := ⟨6, ![64, 64, 64, 1, 8, 8]⟩
abbrev S64x4096x64 : Shape := ⟨3, ![64, 4096, 64]⟩
abbrev S262144x64 : Shape := ⟨2, ![262144, 64]⟩
abbrev S256x64 : Shape := ⟨2, ![256, 64]⟩
abbrev S64x256 : Shape := ⟨2, ![64, 256]⟩
abbrev S_ : Shape := ⟨0, ![]⟩
abbrev S256 : Shape := ⟨1, ![256]⟩
abbrev S1x256 : Shape := ⟨2, ![1, 256]⟩
abbrev S64x8x128 : Shape := ⟨3, ![64, 8, 128]⟩
abbrev S4096x64 : Shape := ⟨2, ![4096, 64]⟩
abbrev S1x8x128 : Shape := ⟨3, ![1, 8, 128]⟩
abbrev S4096x256 : Shape := ⟨2, ![4096, 256]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x1x1 : Shape := ⟨3, ![1, 1, 1]⟩
abbrev S64x1x1 : Shape := ⟨3, ![64, 1, 1]⟩
abbrev S64 : Shape := ⟨1, ![64]⟩

abbrev nBuf : Space → Nat
  | .hbm => 29
  | .vmem => 10
  | .smem => 0
  | _ => 0

abbrev bufTy : (tb : Table) → Fin (tcTables nBuf tb) → BufTy
  | .hbm, ⟨0, _⟩ => ⟨S64x1x512x512, .f32⟩
  | .hbm, ⟨1, _⟩ => ⟨S256x8x8, .f32⟩
  | .hbm, ⟨2, _⟩ => ⟨S64x1x64x8x64x8, .f32⟩
  | .hbm, ⟨3, _⟩ => ⟨S64x64x64x1x8x8, .f32⟩
  | .hbm, ⟨4, _⟩ => ⟨S64x4096x64, .f32⟩
  | .hbm, ⟨5, _⟩ => ⟨S262144x64, .f32⟩
  | .hbm, ⟨6, _⟩ => ⟨S256x64, .f32⟩
  | .hbm, ⟨7, _⟩ => ⟨S256x64, .bf16⟩
  | .hbm, ⟨8, _⟩ => ⟨S256x64, .f32⟩
  | .hbm, ⟨9, _⟩ => ⟨S256x64, .f32⟩
  | .hbm, ⟨10, _⟩ => ⟨S256x64, .bf16⟩
  | .hbm, ⟨11, _⟩ => ⟨S64x256, .bf16⟩
  | .hbm, ⟨12, _⟩ => ⟨S64x256, .bf16⟩
  | .hbm, ⟨13, _⟩ => ⟨S256x64, .f32⟩
  | .hbm, ⟨14, _⟩ => ⟨S_, .f32⟩
  | .hbm, ⟨15, _⟩ => ⟨S256, .f32⟩
  | .hbm, ⟨16, _⟩ => ⟨S1x256, .f32⟩
  | .hbm, ⟨17, _⟩ => ⟨S262144x64, .f32⟩
  | .hbm, ⟨18, _⟩ => ⟨S64x8x128, .f32⟩
  | .hbm, ⟨19, _⟩ => ⟨S64x4096x64, .f32⟩
  | .hbm, ⟨20, _⟩ => ⟨S64x64x64x1x8x8, .f32⟩
  | .hbm, ⟨21, _⟩ => ⟨S64x1x64x8x64x8, .f32⟩
  | .hbm, ⟨22, _⟩ => ⟨S64x1x512x512, .f32⟩
  | .hbm, ⟨23, _⟩ => ⟨S64x1x1, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S64x256, .bf16⟩
  | .local _ .vmem, ⟨3, _⟩ => ⟨S64x256, .bf16⟩
  | .local _ .vmem, ⟨4, _⟩ => ⟨S256x64, .bf16⟩
  | .local _ .vmem, ⟨5, _⟩ => ⟨S1x256, .f32⟩
  | .local _ .vmem, ⟨6, _⟩ => ⟨S4096x64, .f32⟩
  | .local _ .vmem, ⟨7, _⟩ => ⟨S4096x64, .f32⟩
  | .local _ .vmem, ⟨8, _⟩ => ⟨S1x8x128, .f32⟩
  | .local _ .vmem, ⟨9, _⟩ => ⟨S1x8x128, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14_0 : Ref sig .tc := ⟨.hbm, 17, rfl⟩
abbrev main_v14_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x1x512x512_S64x1x64x8x64x8 : S64x1x512x512.ShapeCasts S64x1x64x8x64x8
  transposes_S64x1x64x8x64x8_S64x64x64x1x8x8_0_2_4_1_3_5 : S64x1x64x8x64x8.Transposes [0, 2, 4, 1, 3, 5] S64x64x64x1x8x8
  shapeCasts_S64x64x64x1x8x8_S64x4096x64 : S64x64x64x1x8x8.ShapeCasts S64x4096x64
  shapeCasts_S64x4096x64_S262144x64 : S64x4096x64.ShapeCasts S262144x64
  shapeCasts_S256x8x8_S256x64 : S256x8x8.ShapeCasts S256x64
  bitsLt_bf16_f32 : FTy.bits .bf16 < FTy.bits .f32
  transposes_S256x64_S64x256_1_0 : S256x64.Transposes [1, 0] S64x256
  reducesTo_S256x64_S256_d1 : S256x64.ReducesTo [1] S256
  h_S_ : 0 < S_.numel
  shapeCasts_S256_S1x256 : S256.ShapeCasts S1x256
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  shapeCasts_S4096_S4096x1 : S4096.ShapeCasts S4096x1
  broadcasts_S4096x1_S4096x256 : S4096x1.Broadcasts S4096x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  reduces_S4096x1_S1 : S4096x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  shapeCasts_S262144x64_S64x4096x64 : S262144x64.ShapeCasts S64x4096x64
  shapeCasts_S64x4096x64_S64x64x64x1x8x8 : S64x4096x64.ShapeCasts S64x64x64x1x8x8
  transposes_S64x64x64x1x8x8_S64x1x64x8x64x8_0_3_1_4_2_5 : S64x64x64x1x8x8.Transposes [0, 3, 1, 4, 2, 5] S64x1x64x8x64x8
  shapeCasts_S64x1x64x8x64x8_S64x1x512x512 : S64x1x64x8x64x8.ShapeCasts S64x1x512x512
  slices_S64x8x128_S64x1x1_0_0_0 : S64x8x128.Slices ![0, 0, 0] S64x1x1
  shapeCasts_S64x1x1_S64 : S64x1x1.ShapeCasts S64
  reducesTo_S64_S_d0 : S64.ReducesTo [0] S_
  dot_S4096x64_S64x256_S4096x256_1_0_0_1_n_n_wf : DotDims.WF S4096x64 S64x256 S4096x256 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .bf16 = 32 ∨ (Rect.block (s := S64x256) S64x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S262144x64.size a
  hwx0_5 : ∀ i : grid0.Coords, EltTy.bits .f32 = 32 ∨ (Rect.block (s := S262144x64) S4096x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S64x8x128.size a
  hwx0_6 : ∀ i : grid0.Coords, EltTy.bits .f32 = 32 ∨ (Rect.block (s := S64x8x128) S1x8x128.size (cc0_transform_6 i) (hinb0_6 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v3) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14_0) S4096x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14_1) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S256x8x8 : Shape := ⟨3, ![256, 8, 8]⟩
abbrev S64x1x64x8x64x8 : Shape := ⟨6, ![64, 1, 64, 8, 64, 8]⟩
abbrev S64x64x64x1x8x8 : Shape := ⟨6, ![64, 64, 64, 1, 8, 8]⟩
abbrev S64x4096x64 : Shape := ⟨3, ![64, 4096, 64]⟩
abbrev S262144x64 : Shape := ⟨2, ![262144, 64]⟩
abbrev S256x64 : Shape := ⟨2, ![256, 64]⟩
abbrev S_ : Shape := ⟨0, ![]⟩
abbrev S262144 : Shape := ⟨1, ![262144]⟩
abbrev S262144x1 : Shape := ⟨2, ![262144, 1]⟩
abbrev S256 : Shape := ⟨1, ![256]⟩
abbrev S64x256 : Shape := ⟨2, ![64, 256]⟩
abbrev S262144x256 : Shape := ⟨2, ![262144, 256]⟩
abbrev S1x256 : Shape := ⟨2, ![1, 256]⟩

abbrev nBuf : Space → Nat
  | .hbm => 56
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S256x8x8, .f32⟩
  | .hbm, ⟨2, _⟩ => ⟨S64x1x64x8x64x8, .f32⟩
  | .hbm, ⟨3, _⟩ => ⟨S64x64x64x1x8x8, .f32⟩
  | .hbm, ⟨4, _⟩ => ⟨S64x4096x64, .f32⟩
  | .hbm, ⟨5, _⟩ => ⟨S262144x64, .f32⟩
  | .hbm, ⟨6, _⟩ => ⟨S256x64, .f32⟩
  | .hbm, ⟨7, _⟩ => ⟨S262144x64, .f32⟩
  | .hbm, ⟨8, _⟩ => ⟨S_, .f32⟩
  | .hbm, ⟨9, _⟩ => ⟨S262144, .f32⟩
  | .hbm, ⟨10, _⟩ => ⟨S262144x1, .f32⟩
  | .hbm, ⟨11, _⟩ => ⟨S256x64, .f32⟩
  | .hbm, ⟨12, _⟩ => ⟨S_, .f32⟩
  | .hbm, ⟨13, _⟩ => ⟨S256, .f32⟩
  | .hbm, ⟨14, _⟩ => ⟨S64x256, .f32⟩
  | .hbm, ⟨15, _⟩ => ⟨S262144x256, .f32⟩
  | .hbm, ⟨16, _⟩ => ⟨S_, .f32⟩
  | .hbm, ⟨17, _⟩ => ⟨S262144x256, .f32⟩
  | .hbm, ⟨18, _⟩ => ⟨S262144x256, .f32⟩
  | .hbm, ⟨19, _⟩ => ⟨S262144x256, .f32⟩
  | .hbm, ⟨20, _⟩ => ⟨S262144x256, .f32⟩
  | .hbm, ⟨21, _⟩ => ⟨S1x256, .f32⟩
  | .hbm, ⟨22, _⟩ => ⟨S262144x256, .f32⟩
  | .hbm, ⟨23, _⟩ => ⟨S262144x256, .f32⟩
  | .hbm, ⟨24, _⟩ => ⟨S_, .f32⟩
  | .hbm, ⟨25, _⟩ => ⟨S262144x256, .f32⟩
  | .hbm, ⟨26, _⟩ => ⟨S262144x256, .f32⟩
  | .hbm, ⟨27, _⟩ => ⟨S_, .f32⟩
  | .hbm, ⟨28, _⟩ => ⟨S262144, .f32⟩
  | .hbm, ⟨29, _⟩ => ⟨S_, .f32⟩
  | .hbm, ⟨30, _⟩ => ⟨S262144, .f32⟩
  | .hbm, ⟨31, _⟩ => ⟨S262144, .f32⟩
  | .hbm, ⟨32, _⟩ => ⟨S262144x1, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S_, .f32⟩
  | .hbm, ⟨37, _⟩ => ⟨S262144, .f32⟩
  | .hbm, ⟨38, _⟩ => ⟨S262144x1, .f32⟩
  | .hbm, ⟨39, _⟩ => ⟨S262144x256, .f32⟩
  | .hbm, ⟨40, _⟩ => ⟨S262144x256, .f32⟩
  | .hbm, ⟨41, _⟩ => ⟨S262144x64, .f32⟩
  | .hbm, ⟨42, _⟩ => ⟨S64x4096x64, .f32⟩
  | .hbm, ⟨43, _⟩ => ⟨S64x64x64x1x8x8, .f32⟩
  | .hbm, ⟨44, _⟩ => ⟨S64x1x64x8x64x8, .f32⟩
  | .hbm, ⟨45, _⟩ => ⟨S64x1x512x512, .f32⟩
  | .hbm, ⟨46, _⟩ => ⟨S_, .f32⟩
  | .hbm, ⟨47, _⟩ => ⟨S262144x256, .f32⟩
  | .hbm, ⟨48, _⟩ => ⟨S262144x256, .f32⟩
  | .hbm, ⟨49, _⟩ => ⟨S262144x256, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_cst_8 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  shapeCasts_S64x1x512x512_S64x1x64x8x64x8 : S64x1x512x512.ShapeCasts S64x1x64x8x64x8
  transposes_S64x1x64x8x64x8_S64x64x64x1x8x8_0_2_4_1_3_5 : S64x1x64x8x64x8.Transposes [0, 2, 4, 1, 3, 5] S64x64x64x1x8x8
  shapeCasts_S64x64x64x1x8x8_S64x4096x64 : S64x64x64x1x8x8.ShapeCasts S64x4096x64
  shapeCasts_S64x4096x64_S262144x64 : S64x4096x64.ShapeCasts S262144x64
  shapeCasts_S256x8x8_S256x64 : S256x8x8.ShapeCasts S256x64
  reducesTo_S262144x64_S262144_d1 : S262144x64.ReducesTo [1] S262144
  h_S_ : 0 < S_.numel
  bcast_S262144_S262144x1_0 : S262144.BroadcastsInDim S262144x1 (![0] : Fin 1 → Fin S262144x1.rank)
  reducesTo_S256x64_S256_d1 : S256x64.ReducesTo [1] S256
  transposes_S256x64_S64x256_1_0 : S256x64.Transposes [1, 0] S64x256
  bcast_S_S262144x256 : S_.BroadcastsInDim S262144x256 (![] : Fin 0 → Fin S262144x256.rank)
  bcast_S262144x1_S262144x256_0_1 : S262144x1.BroadcastsInDim S262144x256 (![0, 1] : Fin 2 → Fin S262144x256.rank)
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  reducesTo_S262144x256_S262144_d1 : S262144x256.ReducesTo [1] S262144
  bcast_S_S262144 : S_.BroadcastsInDim S262144 (![] : Fin 0 → Fin S262144.rank)
  shapeCasts_S262144x64_S64x4096x64 : S262144x64.ShapeCasts S64x4096x64
  shapeCasts_S64x4096x64_S64x64x64x1x8x8 : S64x4096x64.ShapeCasts S64x64x64x1x8x8
  transposes_S64x64x64x1x8x8_S64x1x64x8x64x8_0_3_1_4_2_5 : S64x64x64x1x8x8.Transposes [0, 3, 1, 4, 2, 5] S64x1x64x8x64x8
  shapeCasts_S64x1x64x8x64x8_S64x1x512x512 : S64x1x64x8x64x8.ShapeCasts S64x1x512x512
  reducesTo_S262144x256_S_d0_1 : S262144x256.ReducesTo [0, 1] S_
  dot_S262144x64_S64x256_S262144x256_1_0_0_1_n_n_wf : DotDims.WF S262144x64 S64x256 S262144x256 [1] [0] [0] [1] [] []
  dot_S262144x256_S256x64_S262144x64_1_0_0_1_n_n_wf : DotDims.WF S262144x256 S256x64 S262144x64 [1] [0] [0] [1] [] []

variable [Facts₀]

def dot_S262144x64_S64x256_S262144x256_1_0_0_1_n_n : DotDims S262144x64 S64x256 S262144x256 where
  lhsContracting := [1]
  rhsContracting := [0]
  lhsNonContracting := [0]
  rhsNonContracting := [1]
  lhsBatch := []
  rhsBatch := []
  wf := dot_S262144x64_S64x256_S262144x256_1_0_0_1_n_n_wf
def dot_S262144x256_S256x64_S262144x64_1_0_0_1_n_n : DotDims S262144x256 S256x64 S262144x64 where
  lhsContracting := [1]
  rhsContracting := [0]
  lhsNonContracting := [0]
  rhsNonContracting := [1]
  lhsBatch := []
  rhsBatch := []
  wf := dot_S262144x256_S256x64_S262144x64_1_0_0_1_n_n_wf

class Facts : Prop extends Facts₀ where

variable [Facts]
-- ==== Proof.Spec.lean ====
/-
  Soft vector quantisation of 8×8 image patches against a codebook of 256 codes, row by row.

  For one patch `p` (64 numbers) and the codes `C k` (256 of them, 64 numbers each) both programs form a
  row of 256 logits, turn it into weights by a softmax, and blend the codes with those weights.  They
  differ in the logits only:
  * one takes `-β · ((‖p‖² − 2·⟨p, C k⟩) + ‖C k‖²)` (the squared distance, expanded);
  * the other drops the row constant `‖p‖²`, and splits the inner product into three passes over a
    "high" and a "low" part of each factor: `⟨p, C k⟩ + ⟨p, C k − C k⟩ + ⟨p − p, C k⟩` — at exact
    arithmetic the high part is the number itself and the low part is `x − x`.
  A softmax does not change when a constant is added to the whole row, and `x − x = 0` for a finite `x`,
  so on finite data the weights agree (Proof/Algebra.lean).

  The numbers are extended reals; a literal is kept as the bit pattern the programs print.
-/
import Idealize.ShloMosaic.PureOps.Ideal
import Idealize.ShloMosaic.PureOps.Ideal.Laws

noncomputable section

namespace Cert.SoftBlend

open Idealize.ShloMosaic

/-- The maximum of a row of 256 logits as both programs take it: the fold of `max` from `-∞`, and
    once more against `-∞`. -/
def rowMax (L : Fin 256 → EReal) : EReal :=
  max (Ideal.ofBits .f32 0xFF800000#32)
    ((Finset.univ : Finset (Fin 256)).fold max (Ideal.ofBits .f32 0xFF800000#32) L)

/-- `exp (L k − max L)`: the numerically stable softmax's numerator. -/
def expShift (L : Fin 256 → EReal) (k : Fin 256) : EReal := Ideal.exp (L k - rowMax L)

/-- The softmax of a row of logits. -/
def weights (L : Fin 256 → EReal) (k : Fin 256) : EReal :=
  Ideal.div (expShift L k) (∑ j : Fin 256, expShift L j)

/-- `‖x‖²` of a 64-vector as a host sum: from the zero literal. -/
def sqNorm (x : Fin 64 → EReal) : EReal := Ideal.ofBits .f32 0x00000000#32 + ∑ l : Fin 64, x l * x l

/-- The logits from the expanded squared distance: `-35 · ((‖p‖² − 2·⟨p, C k⟩) + ‖C k‖²)`. -/
def distLogit (p : Fin 64 → EReal) (C : Fin 256 → Fin 64 → EReal) (k : Fin 256) : EReal :=
  Ideal.ofBits .f32 0xC20C0000#32
    * ((sqNorm p - Ideal.ofBits .f32 0x40000000#32 * ∑ l : Fin 64, p l * C k l) + sqNorm (C k))

/-- The logits without the row constant, the inner product in three passes over high and low parts:
    `-35 · (‖C k‖² − 2·((⟨p, C k⟩ + ⟨p, C k − C k⟩) + ⟨p − p, C k⟩))`. -/
def splitLogit (p : Fin 64 → EReal) (C : Fin 256 → Fin 64 → EReal) (k : Fin 256) : EReal :=
  Ideal.ofBits .f32 0xC20C0000#32
    * (sqNorm (C k) - Ideal.ofBits .f32 0x40000000#32
        * (((∑ l : Fin 64, p l * C k l) + ∑ l : Fin 64, p l * (C k l - C k l))
            + ∑ l : Fin 64, (p l - p l) * C k l))

/-- The codes blended with a row of weights, at pixel `l` of the patch. -/
def blend (W : Fin 256 → EReal) (C : Fin 256 → Fin 64 → EReal) (l : Fin 64) : EReal :=
  ∑ k : Fin 256, W k * C k l

/-- How far a row of weights is from a hard choice: `∑ₖ min (wₖ, 1 − wₖ)`. -/
def rowPenalty (W : Fin 256 → EReal) : EReal :=
  ∑ k : Fin 256, min (W k) (Ideal.ofBits .f32 0x3F800000#32 - W k)

/-- Row `4096·t + r` of the 262144 rows: row `r` of tile `t`. -/
def tileRow (t : Fin 64) (r : Fin 4096) : Fin 262144 := ⟨t.val * 4096 + r.val, by omega⟩

/-- The penalty summed tile by tile (64 tiles of 4096 rows), the tiles from zero, over the row count
    `262144`. -/
def tiledPenalty (W : Fin 262144 → Fin 256 → EReal) : EReal :=
  Ideal.div (Ideal.ofBits .f32 0x00000000#32 + ∑ t : Fin 64, ∑ r : Fin 4096, rowPenalty (W (tileRow t r)))
    (Ideal.ofBits .f32 0x48800000#32)

/-- The penalty as a mean over all `262144 · 256` weights, times `256`. -/
def meanPenalty (W : Fin 262144 → Fin 256 → EReal) : EReal :=
  Ideal.div (Ideal.ofBits .f32 0x00000000#32
      + ∑ n : Fin 262144, ∑ k : Fin 256, min (W n k) (Ideal.ofBits .f32 0x3F800000#32 - W n k))
    (Ideal.ofBits .f32 0x4C800000#32) * Ideal.ofBits .f32 0x43800000#32

end Cert.SoftBlend

end
-- ==== Proof.Layout.lean ====
/-
  The row-wise functions of Proof/Spec.lean over the two arrays the programs work on: the 262144 × 64 array of
  patches (one patch per row) and the 256 × 64 array of codes.
-/
import proofs.«158663_j37005438222627_2_alg».proof.Proof.Spec
import Idealize.ShloMosaic.Lib.ValueIdx

noncomputable section

namespace Cert.SoftBlend

open Idealize.ShloMosaic Idealize.ShloMosaic.ValueIdx

/-- The patches' shape. -/
abbrev SP : Shape := ⟨2, ![262144, 64]⟩
/-- The codes' shape. -/
abbrev SC : Shape := ⟨2, ![256, 64]⟩

/-- Row `n` of the patches. -/
def patchRow (P : SP.Idx → EReal) (n : Fin 262144) : Fin 64 → EReal := fun l => P (ix2 n l)

/-- The codes as a table. -/
def codeTab (C : SC.Idx → EReal) : Fin 256 → Fin 64 → EReal := fun k l => C (ix2 k l)

/-- The softmax weights of every row, from the distance logits. -/
def distW (P : SP.Idx → EReal) (C : SC.Idx → EReal) (n : Fin 262144) : Fin 256 → EReal :=
  weights (distLogit (patchRow P n) (codeTab C))

/-- The softmax weights of every row, from the split logits. -/
def splitW (P : SP.Idx → EReal) (C : SC.Idx → EReal) (n : Fin 262144) : Fin 256 → EReal :=
  weights (splitLogit (patchRow P n) (codeTab C))

/-- The reconstructed patches: every row the blend of the codes with that row's weights. -/
def reconOf (W : Fin 262144 → Fin 256 → EReal) (C : SC.Idx → EReal) : SP.Idx → EReal :=
  fun i => blend (W ⟨(i 0).val, (i 0).isLt⟩) (codeTab C) ⟨(i 1).val, (i 1).isLt⟩

end Cert.SoftBlend

end
-- ==== Proof.KernelArrays.lean ====
/-
  The arrays the kernel's windows stage, as the host operations before the launch leave them.
-/
import proofs.«158663_j37005438222627_2_alg».proof.Proof.Gen.KernelIdeal.Frame
import proofs.«158663_j37005438222627_2_alg».proof.Proof.Layout
import Idealize.ShloMosaic.Lib.StableHlo.Run
import Idealize.ShloMosaic.Lib.Pipeline.Value
import Idealize.ShloMosaic.PureOps.Ideal.Laws

noncomputable section

namespace Cert.KernelIdeal.Arr

open Cert.KernelIdeal Cert.KernelIdeal.Gen Idealize.ShloMosaic Idealize.ShloMosaic.TcCoe Idealize.SL.Sem
open Idealize.ShloMosaic.ValueIdx Cert.SoftBlend

/-- The image cut into 8 × 8 patches, one per row: a reshape, a transpose and two reshapes (never opened). -/
def patchesOf (x0 : (⟨S64x1x512x512, .f32⟩ : BufTy).Contents (Elt Ideal)) : (⟨S262144x64, .f32⟩ : BufTy).Contents (Elt Ideal) :=
  shapeCast _ (shapeCast _ (transpose S64x64x64x1x8x8 [0, 2, 4, 1, 3, 5] (shapeCast _ x0 shapeCasts_S64x1x512x512_S64x1x64x8x64x8)
    transposes_S64x1x64x8x64x8_S64x64x64x1x8x8_0_2_4_1_3_5) shapeCasts_S64x64x64x1x8x8_S64x4096x64) shapeCasts_S64x4096x64_S262144x64

/-- The codebook with each 8 × 8 code flattened to a row. -/
def codesOf (x1 : (⟨S256x8x8, .f32⟩ : BufTy).Contents (Elt Ideal)) : (⟨S256x64, .f32⟩ : BufTy).Contents (Elt Ideal) :=
  shapeCast _ x1 shapeCasts_S256x8x8_S256x64

variable (m : (ℓ : Loc nD τ sig) → Buf (Elt Ideal) ℓ)

theorem V_v3 (c : Dev nD) : V m c main_v3 = patchesOf (m ((c : Thread nD τ).loc main_arg0)) := by
  show StableHlo.after hostOps0 (fun b => m (c, b)) (Proc.devRef .tc main_v3) = _
  after_results
  rfl

theorem V_v5 (c : Dev nD) : (V m c main_v5 : S256x64.Idx → EReal) = truncf (F := Ideal) .bf16 (codesOf (m ((c : Thread nD τ).loc main_arg1))) bitsLt_bf16_f32 := by
  show StableHlo.after hostOps0 (fun b => m (c, b)) (Proc.devRef .tc main_v5) = _
  after_results
  rfl

theorem V_v9 (c : Dev nD) : (V m c main_v9 : S64x256.Idx → EReal) = transpose S64x256 [1, 0] (truncf (F := Ideal) .bf16 (codesOf (m ((c : Thread nD τ).loc main_arg1))) bitsLt_bf16_f32) transposes_S256x64_S64x256_1_0 := by
  show StableHlo.after hostOps0 (fun b => m (c, b)) (Proc.devRef .tc main_v9) = _
  after_results
  rfl

theorem V_v10 (c : Dev nD) : (V m c main_v10 : S64x256.Idx → EReal) = transpose S64x256 [1, 0] (truncf (F := Ideal) .bf16 (subf (F := Ideal) (codesOf (m ((c : Thread nD τ).loc main_arg1)))
      (extf (F := Ideal) .f32 (truncf (F := Ideal) .bf16 (codesOf (m ((c : Thread nD τ).loc main_arg1))) bitsLt_bf16_f32) bitsLt_bf16_f32)) bitsLt_bf16_f32) transposes_S256x64_S64x256_1_0 := by
  show StableHlo.after hostOps0 (fun b => m (c, b)) (Proc.devRef .tc main_v10) = _
  after_results
  rfl

theorem V_v13 (c : Dev nD) : V m c main_v13 = shapeCast S1x256 (Host.reduceAdd (F := Ideal) (mulf (codesOf (m ((c : Thread nD τ).loc main_arg1))) (codesOf (m ((c : Thread nD τ).loc main_arg1))))
      (constant (F := Ideal) S_ .f32 0x00000000#32) reducesTo_S256x64_S256_d1 h_S_) shapeCasts_S256_S1x256 := by
  show StableHlo.after hostOps0 (fun b => m (c, b)) (Proc.devRef .tc main_v13) = _
  after_results
  rfl

/-! ## The staged arrays at an index -/

/-- The codes of the launch memory. -/
abbrev codesAt (c : Dev nD) : (⟨S256x64, .f32⟩ : BufTy).Contents (Elt Ideal) := codesOf (m ((c : Thread nD τ).loc main_arg1))

/-- The transposed "high" codes at `(l, k)`: code `k` at pixel `l` (rounding is the identity). -/
theorem V_v9_apply (c : Dev nD) (l : Fin 64) (k : Fin 256) :
    (V m c main_v9 : S64x256.Idx → EReal) (ix2 l k) = codesAt m c (ix2 k l) := by
  rw [V_v9]
  exact transpose_apply [1, 0] _ transposes_S256x64_S64x256_1_0 (ix2 l k) (ix2 k l) (fun b => match b with
    | ⟨0, _⟩ => rfl
    | ⟨1, _⟩ => rfl)

/-- The transposed "low" codes at `(l, k)`: code `k` at pixel `l` less itself. -/
theorem V_v10_apply (c : Dev nD) (l : Fin 64) (k : Fin 256) :
    (V m c main_v10 : S64x256.Idx → EReal) (ix2 l k) = codesAt m c (ix2 k l) - codesAt m c (ix2 k l) := by
  rw [V_v10]
  exact transpose_apply [1, 0] _ transposes_S256x64_S64x256_1_0 (ix2 l k) (ix2 k l) (fun b => match b with
    | ⟨0, _⟩ => rfl
    | ⟨1, _⟩ => rfl)

/-- The "high" codes at `(k, l)`. -/
theorem V_v5_apply (c : Dev nD) (k : Fin 256) (l : Fin 64) :
    (V m c main_v5 : S256x64.Idx → EReal) (ix2 k l) = codesAt m c (ix2 k l) := by
  rw [V_v5]; rfl

/-- The host's row of squared norms of a code table, at column `k`: `‖C k‖²` summed from the zero literal. -/
theorem sqNormRow_apply (C : (⟨S256x64, .f32⟩ : BufTy).Contents (Elt Ideal)) (k : Fin 256) :
    shapeCast S1x256 (Host.reduceAdd (F := Ideal) (mulf (F := Ideal) C C) (constant (F := Ideal) S_ .f32 0x00000000#32) reducesTo_S256x64_S256_d1 h_S_)
      shapeCasts_S256_S1x256 (ix2 (0 : Fin 1) k) = sqNorm (codeTab C k) := by
  refine (shapeCast_apply _ shapeCasts_S256_S1x256 (ix2 (0 : Fin 1) k) (ix1 k) ?_).trans ?_
  · rw [Shape.rowMajor_val_one, Shape.rowMajor_val_two]
    show k.val = 0 * 256 + k.val
    omega
  · simp only [Host.reduceAdd, Ideal.hostReduceAdd_def]
    rw [Ideal.hostReduceAdd_single reducesTo_S256x64_S256_d1 (by decide)]
    unfold sqNorm codeTab
    refine congrArg (_ + ·) (Finset.sum_congr rfl fun l _ => ?_)
    have e : (by decide : S256x64.Reduces [1] S256).lift (ix1 k) l = ix2 k (⟨l.val, l.isLt⟩ : Fin 64) :=
      funext fun a => Fin.ext (by match a with | ⟨0, _⟩ => rfl | ⟨1, _⟩ => rfl)
    rw [e]
    rfl

/-- The row of squared norms the kernel stages, at column `k`. -/
theorem V_v13_apply (c : Dev nD) (k : Fin 256) :
    (V m c main_v13 : S1x256.Idx → EReal) (ix2 (0 : Fin 1) k) = sqNorm (codeTab (codesAt m c) k) := by
  rw [V_v13]
  exact sqNormRow_apply _ k

end Cert.KernelIdeal.Arr

end
-- ==== Proof.KernelPay.lean ====
/-
  The kernel body's arithmetic read at an index.

  The body's first payload is a softmax over the 256 columns of a 4096 × 256 block of logits; its second blends the
  codes with those weights through a matrix product; its third sums `min (w, 1 − w)` over the whole block.  Each is
  restated here as a composition of a few named pieces (equal to the printed payload by unfolding) and each piece is
  read at row `r` and column `k` as the row-wise functions of Proof/Spec.lean.
-/
import proofs.«158663_j37005438222627_2_alg».proof.Proof.Gen.KernelIdeal.Skeleton
import proofs.«158663_j37005438222627_2_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.SoftBlend

/-! ## Layout pieces -/

/-- A column vector `[4096]` viewed `[4096, 1]` and broadcast along the 256 columns reads its row. -/
theorem colBroadcast_apply {α : Type} (w : S4096.Idx → α) (r : Fin 4096) (k : Fin 256) :
    broadcastTo S4096x256 (shapeCast S4096x1 w shapeCasts_S4096_S4096x1) broadcasts_S4096x1_S4096x256 (ix2 r k) = w (ix1 r) := by
  refine (broadcastTo_apply _ broadcasts_S4096x1_S4096x256 (ix2 r k) (ix2 r (0 : Fin 1)) (fun a => ?_)).trans ?_
  · match a with
    | ⟨0, _⟩ => show r.val = if (4096 : Nat) = 1 then 0 else r.val; rw [if_neg (by decide)]
    | ⟨1, _⟩ => show 0 = if (1 : Nat) = 1 then 0 else k.val; rw [if_pos rfl]
  · refine shapeCast_apply w shapeCasts_S4096_S4096x1 (ix2 r (0 : Fin 1)) (ix1 r) ?_
    rw [Shape.rowMajor_val_one, Shape.rowMajor_val_two]
    show r.val = r.val * 1 + 0
    omega

/-- The row `[1, 256]` broadcast along the 4096 rows reads its column. -/
theorem rowBroadcast_apply {α : Type} (w : S1x256.Idx → α) (r : Fin 4096) (k : Fin 256) :
    broadcastTo S4096x256 w broadcasts_S1x256_S4096x256 (ix2 r k) = w (ix2 (0 : Fin 1) k) := by
  refine broadcastTo_apply _ broadcasts_S1x256_S4096x256 (ix2 r k) (ix2 (0 : Fin 1) k) (fun a => ?_)
  match a with
  | ⟨0, _⟩ => show 0 = if (1 : Nat) = 1 then 0 else r.val; rw [if_pos rfl]
  | ⟨1, _⟩ => show k.val = if (256 : Nat) = 1 then 0 else k.val; rw [if_neg (by decide)]

/-- The reduced index `r` with column `k` put back is `(r, k)`. -/
theorem lift_row (r : Fin 4096) (k : Fin (S4096x256.size 1)) :
    reduces_S4096x256_S4096.lift (ix1 r) k = ix2 r (⟨k.val, k.isLt⟩ : Fin 256) := by
  funext c; apply Fin.ext
  match c with
  | ⟨0, _⟩ => rfl
  | ⟨1, _⟩ => rfl

theorem scalar_ofBits (φ : FTy) (b : BitVec φ.bits) : Scalar.ofBits (F := Ideal) φ b = Ideal.ofBits φ b := rfl

/-! ## The softmax over the columns -/

/-- Row `r` of a block of logits. -/
def rowOf (L : FVec Ideal S4096x256 .f32) (r : Fin 4096) : Fin 256 → EReal := fun k => L (ix2 r k)

/-- The row maxima of a block of logits: from `-∞` over the columns, and once more against `-∞`. -/
def rowMaxV (L : FVec Ideal S4096x256 .f32) : FVec Ideal S4096 .f32 :=
  maximumf (F := Ideal) (broadcast S4096 (Scalar.ofBits (F := Ideal) .f32 0xFF800000#32))
    (multiReduction (F := Ideal) .maximumf [1] S4096 L 0xFF800000#32 reduces_S4096x256_S4096 (.inl rfl) rfl)

/-- The exponentials of the logits less their row maximum. -/
def expV (L : FVec Ideal S4096x256 .f32) : FVec Ideal S4096x256 .f32 :=
  exp (F := Ideal) (subf (F := Ideal) L (broadcastTo S4096x256 (shapeCast S4096x1 (rowMaxV L) shapeCasts_S4096_S4096x1) broadcasts_S4096x1_S4096x256))

/-- The body's softmax of a block of logits. -/
def softmaxRows (L : FVec Ideal S4096x256 .f32) : FVec Ideal S4096x256 .f32 :=
  divf (F := Ideal) (expV L) (broadcastTo S4096x256 (shapeCast S4096x1
    (multiReduction (F := Ideal) .add [1] S4096 (expV L) 0x00000000#32 reduces_S4096x256_S4096 (.inl rfl) rfl) shapeCasts_S4096_S4096x1) broadcasts_S4096x1_S4096x256)

theorem rowMaxV_apply (L : FVec Ideal S4096x256 .f32) (r : Fin 4096) : rowMaxV L (ix1 r) = rowMax (rowOf L r) := by
  have h := Ideal.multiReduction_maximumf_single L 0xFF800000#32 reduces_S4096x256_S4096 (.inl rfl) rfl (ix1 r)
  have hf : (L ∘ reduces_S4096x256_S4096.lift (ix1 r)) = rowOf L r := funext fun k => congrArg L (lift_row r k)
  rw [hf, Ideal.ofBits_def] at h
  unfold rowMaxV
  rw [maximumf_apply, broadcast_apply, scalar_ofBits, h]
  rfl

theorem rowSum_apply (E : FVec Ideal S4096x256 .f32) (r : Fin 4096) :
    multiReduction (F := Ideal) .add [1] S4096 E 0x00000000#32 reduces_S4096x256_S4096 (.inl rfl) rfl (ix1 r)
      = ∑ k : Fin 256, E (ix2 r k) := by
  refine (Ideal.multiReduction_add_single E 0x00000000#32 reduces_S4096x256_S4096 (.inl rfl) rfl (ix1 r)).trans ?_
  exact Finset.sum_congr rfl fun k _ => congrArg E (lift_row r k)

theorem expV_apply (L : FVec Ideal S4096x256 .f32) (r : Fin 4096) (k : Fin 256) : expV L (ix2 r k) = expShift (rowOf L r) k := by
  unfold expV
  show Ideal.exp (L (ix2 r k) - broadcastTo S4096x256 (shapeCast S4096x1 (rowMaxV L) shapeCasts_S4096_S4096x1) broadcasts_S4096x1_S4096x256 (ix2 r k)) = _
  rw [colBroadcast_apply, rowMaxV_apply]
  rfl

/-- The body's softmax at row `r`, column `k`: the softmax weights of row `r` of the logits. -/
theorem softmaxRows_apply (L : FVec Ideal S4096x256 .f32) (r : Fin 4096) (k : Fin 256) :
    softmaxRows L (ix2 r k) = weights (rowOf L r) k := by
  unfold softmaxRows
  rw [divf_apply, colBroadcast_apply, rowSum_apply, expV_apply]
  unfold weights
  exact congrArg (Ideal.div _) (Finset.sum_congr rfl fun k' _ => expV_apply L r k')

/-! ## The logits -/

theorem matmulA_lhs0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem matmulA_rhs1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

/-- A `4096 × 64` by `64 × 256` product into the zero block, at row `r`, column `k`. -/
theorem matmulA_apply (a : FVec Ideal S4096x64 .bf16) (b : FVec Ideal S64x256 .bf16) (r : Fin 4096) (k : Fin 256) :
    matmul (F := Ideal) dot_S4096x64_S64x256_S4096x256_1_0_0_1_n_n none a b (constant (F := Ideal) S4096x256 .f32 0x00000000#32) (ix2 r k)
      = ∑ q : Fin 64, a (ix2 r q) * b (ix2 q k) := by
  refine (Ideal.matmul_constant_zero_apply dot_S4096x64_S64x256_S4096x256_1_0_0_1_n_n none a b (ix2 r k)).trans ?_
  rw [← Equiv.sum_comp (ValueIdx.contrEquiv1 dot_S4096x64_S64x256_S4096x256_1_0_0_1_n_n 64 rfl rfl).symm]
  refine Finset.sum_congr rfl fun q _ => ?_
  have hq := ValueIdx.contrEquiv1_symm_val dot_S4096x64_S64x256_S4096x256_1_0_0_1_n_n 64 rfl rfl q
  have el : dot_S4096x64_S64x256_S4096x256_1_0_0_1_n_n.lhsIdx (ix2 r k) ((ValueIdx.contrEquiv1 dot_S4096x64_S64x256_S4096x256_1_0_0_1_n_n 64 rfl rfl).symm q) = ix2 r q := funext fun a => Fin.ext (by
    match a with
    | ⟨0, _⟩ => exact matmulA_lhs0 _ _
    | ⟨1, _⟩ => exact (dot_S4096x64_S64x256_S4096x256_1_0_0_1_n_n.lhsIdx_val_of_single rfl _ _).trans hq)
  have er : dot_S4096x64_S64x256_S4096x256_1_0_0_1_n_n.rhsIdx (ix2 r k) ((ValueIdx.contrEquiv1 dot_S4096x64_S64x256_S4096x256_1_0_0_1_n_n 64 rfl rfl).symm q) = ix2 q k := funext fun a => Fin.ext (by
    match a with
    | ⟨0, _⟩ => exact (dot_S4096x64_S64x256_S4096x256_1_0_0_1_n_n.rhsIdx_val_of_single rfl _ _).trans hq
    | ⟨1, _⟩ => exact matmulA_rhs1 _ _)
  rw [el, er]

theorem matmulB_lhs0 (i : S4096x64.Idx) (q : dot_S4096x256_S256x64_S4096x64_1_0_0_1_n_n.contr.Idx) :
    (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem matmulB_rhs1 (i : S4096x64.Idx) (q : dot_S4096x256_S256x64_S4096x64_1_0_0_1_n_n.contr.Idx) :
    (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- A `4096 × 256` by `256 × 64` product into the zero block, at row `r`, column `l`. -/
theorem matmulB_apply (a : FVec Ideal S4096x256 .bf16) (b : FVec Ideal S256x64 .bf16) (r : Fin 4096) (l : Fin 64) :
    matmul (F := Ideal) dot_S4096x256_S256x64_S4096x64_1_0_0_1_n_n none a b (constant (F := Ideal) S4096x64 .f32 0x00000000#32) (ix2 r l)
      = ∑ q : Fin 256, a (ix2 r q) * b (ix2 q l) := by
  refine (Ideal.matmul_constant_zero_apply dot_S4096x256_S256x64_S4096x64_1_0_0_1_n_n none a b (ix2 r l)).trans ?_
  rw [← Equiv.sum_comp (ValueIdx.contrEquiv1 dot_S4096x256_S256x64_S4096x64_1_0_0_1_n_n 256 rfl rfl).symm]
  refine Finset.sum_congr rfl fun q _ => ?_
  have hq := ValueIdx.contrEquiv1_symm_val dot_S4096x256_S256x64_S4096x64_1_0_0_1_n_n 256 rfl rfl q
  have el : dot_S4096x256_S256x64_S4096x64_1_0_0_1_n_n.lhsIdx (ix2 r l) ((ValueIdx.contrEquiv1 dot_S4096x256_S256x64_S4096x64_1_0_0_1_n_n 256 rfl rfl).symm q) = ix2 r q := funext fun a => Fin.ext (by
    match a with
    | ⟨0, _⟩ => exact matmulB_lhs0 _ _
    | ⟨1, _⟩ => exact (dot_S4096x256_S256x64_S4096x64_1_0_0_1_n_n.lhsIdx_val_of_single rfl _ _).trans hq)
  have er : dot_S4096x256_S256x64_S4096x64_1_0_0_1_n_n.rhsIdx (ix2 r l) ((ValueIdx.contrEquiv1 dot_S4096x256_S256x64_S4096x64_1_0_0_1_n_n 256 rfl rfl).symm q) = ix2 q l := funext fun a => Fin.ext (by
    match a with
    | ⟨0, _⟩ => exact (dot_S4096x256_S256x64_S4096x64_1_0_0_1_n_n.rhsIdx_val_of_single rfl _ _).trans hq
    | ⟨1, _⟩ => exact matmulB_rhs1 _ _)
  rw [el, er]

/-- The body's block of logits: `-35 · (‖C k‖² − 2 · (three passes of the inner product))`. -/
def logitsK (v0 : Vec Ideal S4096x64 .f32) (v6 : Vec Ideal S64x256 .bf16) (v8 : Vec Ideal S64x256 .bf16) (v15 : Vec Ideal S1x256 .f32) : FVec Ideal S4096x256 .f32 :=
  have v1 : FVec Ideal S4096x64 .f32 := shapeCast S4096x64 v0 shapeCasts_S4096x64_S4096x64
  have v2 : FVec Ideal S4096x64 .bf16 := truncf .bf16 v1 bitsLt_bf16_f32
  have v4 : FVec Ideal S4096x64 .f32 := subf v1 v1
  have v5 : FVec Ideal S4096x64 .bf16 := truncf .bf16 v4 bitsLt_bf16_f32
  have v7 : FVec Ideal S64x256 .bf16 := shapeCast S64x256 v6 shapeCasts_S64x256_S64x256
  have v9 : FVec Ideal S64x256 .bf16 := shapeCast S64x256 v8 shapeCasts_S64x256_S64x256
  have v10 : FVec Ideal S4096x256 .f32 := matmul dot_S4096x64_S64x256_S4096x256_1_0_0_1_n_n none v2 v7 (constant S4096x256 .f32 0x00000000#32)
  have v11 : FVec Ideal S4096x256 .f32 := matmul dot_S4096x64_S64x256_S4096x256_1_0_0_1_n_n none v2 v9 (constant S4096x256 .f32 0x00000000#32)
  have v13 : FVec Ideal S4096x256 .f32 := matmul dot_S4096x64_S64x256_S4096x256_1_0_0_1_n_n none v5 v7 (constant S4096x256 .f32 0x00000000#32)
  have v14 : FVec Ideal S4096x256 .f32 := addf (addf v10 v11) v13
  have v16 : FVec Ideal S1x256 .f32 := shapeCast S1x256 v15 shapeCasts_S1x256_S1x256
  have v18 : FVec Ideal S4096x256 .f32 := mulf (broadcast S4096x256 (Scalar.ofBits .f32 0x40000000#32)) v14
  have v20 : FVec Ideal S4096x256 .f32 := subf (broadcastTo S4096x256 v16 broadcasts_S1x256_S4096x256) v18
  mulf (broadcast S4096x256 (Scalar.ofBits .f32 0xC20C0000#32)) v20

/-- The first payload is the softmax of the logits. -/
theorem pay2_eq (v0 : Vec Ideal S4096x64 .f32) (v6 : Vec Ideal S64x256 .bf16) (v8 : Vec Ideal S64x256 .bf16) (v15 : Vec Ideal S1x256 .f32) :
    k0_pay2 v0 v6 v8 v15 = softmaxRows (logitsK v0 v6 v8 v15) := rfl

/-- The logits at row `r`, column `k`, when the loaded blocks hold: the patches `p`, the transposed codes `C`, the
    transposed low codes `C − C`, the squared norms of the codes. -/
theorem logitsK_apply (v0 : Vec Ideal S4096x64 .f32) (v6 : Vec Ideal S64x256 .bf16) (v8 : Vec Ideal S64x256 .bf16) (v15 : Vec Ideal S1x256 .f32)
    (p : Fin 4096 → Fin 64 → EReal) (C : Fin 256 → Fin 64 → EReal)
    (h0 : ∀ r l, v0 (ix2 r l) = p r l) (h6 : ∀ l k, v6 (ix2 l k) = C k l) (h8 : ∀ l k, v8 (ix2 l k) = C k l - C k l)
    (h15 : ∀ k, v15 (ix2 (0 : Fin 1) k) = sqNorm (C k)) (r : Fin 4096) (k : Fin 256) :
    logitsK v0 v6 v8 v15 (ix2 r k) = splitLogit (p r) C k := by
  unfold logitsK
  simp only [mulf_apply, subf_apply, addf_apply, broadcast_apply, scalar_ofBits, shapeCast_self, rowBroadcast_apply, matmulA_apply,
    truncf_apply, h0, h6, h8, h15]
  rfl

/-- The first payload at row `r`, column `k`: the softmax weights of the split logits of row `r`. -/
theorem pay2_apply (v0 : Vec Ideal S4096x64 .f32) (v6 : Vec Ideal S64x256 .bf16) (v8 : Vec Ideal S64x256 .bf16) (v15 : Vec Ideal S1x256 .f32)
    (p : Fin 4096 → Fin 64 → EReal) (C : Fin 256 → Fin 64 → EReal)
    (h0 : ∀ r l, v0 (ix2 r l) = p r l) (h6 : ∀ l k, v6 (ix2 l k) = C k l) (h8 : ∀ l k, v8 (ix2 l k) = C k l - C k l)
    (h15 : ∀ k, v15 (ix2 (0 : Fin 1) k) = sqNorm (C k)) (r : Fin 4096) (k : Fin 256) :
    k0_pay2 v0 v6 v8 v15 (ix2 r k) = weights (splitLogit (p r) C) k := by
  rw [pay2_eq, softmaxRows_apply]
  refine congrFun (congrArg weights (funext fun k' => ?_)) k
  exact logitsK_apply v0 v6 v8 v15 p C h0 h6 h8 h15 r k'

/-- The second payload at row `r`, pixel `l`: the codes blended with row `r`'s weights. -/
theorem pay3_apply (v0 : Vec Ideal S4096x64 .f32) (v6 : Vec Ideal S64x256 .bf16) (v8 : Vec Ideal S64x256 .bf16) (v15 : Vec Ideal S1x256 .f32)
    (v34 : Vec Ideal S256x64 .bf16) (p : Fin 4096 → Fin 64 → EReal) (C : Fin 256 → Fin 64 → EReal)
    (h0 : ∀ r l, v0 (ix2 r l) = p r l) (h6 : ∀ l k, v6 (ix2 l k) = C k l) (h8 : ∀ l k, v8 (ix2 l k) = C k l - C k l)
    (h15 : ∀ k, v15 (ix2 (0 : Fin 1) k) = sqNorm (C k)) (h34 : ∀ k l, v34 (ix2 k l) = C k l) (r : Fin 4096) (l : Fin 64) :
    k0_pay3 v0 v6 v8 v15 v34 (ix2 r l) = blend (weights (splitLogit (p r) C)) C l := by
  unfold k0_pay3
  simp only [matmulB_apply, truncf_apply, shapeCast_self, h34, pay2_apply v0 v6 v8 v15 p C h0 h6 h8 h15]
  rfl

/-! ## The penalty of a block -/

/-- The third payload at any index of the `[1, 8, 128]` block: the row penalties of the 4096 rows, summed. -/
theorem pay1_apply (v33 : FVec Ideal S4096x256 .f32) (W : Fin 4096 → Fin 256 → EReal) (h : ∀ r k, v33 (ix2 r k) = W r k)
    (y : S1x8x128.Idx) : k0_pay1 v33 y = ∑ r : Fin 4096, rowPenalty (W r) := by
  unfold k0_pay1
  refine (broadcastTo_apply _ broadcasts_S1x1x1_S1x8x128 y (ix3 (0 : Fin 1) (0 : Fin 1) (0 : Fin 1)) (fun a => ?_)).trans ?_
  · match a with
    | ⟨0, _⟩ => show 0 = if (1 : Nat) = 1 then 0 else _; rw [if_pos rfl]
    | ⟨1, _⟩ => show 0 = if (1 : Nat) = 1 then 0 else _; rw [if_pos rfl]
    | ⟨2, _⟩ => show 0 = if (1 : Nat) = 1 then 0 else _; rw [if_pos rfl]
  rw [shapeCast_self]
  refine (shapeCast_apply _ shapeCasts_S1x1_S1x1x1 (ix3 (0 : Fin 1) (0 : Fin 1) (0 : Fin 1)) (ix2 (0 : Fin 1) (0 : Fin 1)) ?_).trans ?_
  · rw [Shape.rowMajor_val_two, Shape.rowMajor_val_three]; rfl
  refine (shapeCast_apply _ shapeCasts_S1_S1x1 (ix2 (0 : Fin 1) (0 : Fin 1)) (ix1 (0 : Fin 1)) ?_).trans ?_
  · rw [Shape.rowMajor_val_one, Shape.rowMajor_val_two]; rfl
  refine (Ideal.multiReduction_add_single _ 0x00000000#32 reduces_S4096x1_S1 (.inl rfl) rfl (ix1 (0 : Fin 1))).trans ?_
  refine Finset.sum_congr rfl fun r _ => ?_
  have e : reduces_S4096x1_S1.lift (ix1 (0 : Fin 1)) r = ix2 (⟨r.val, r.isLt⟩ : Fin 4096) (0 : Fin 1) :=
    funext fun a => Fin.ext (by match a with | ⟨0, _⟩ => rfl | ⟨1, _⟩ => rfl)
  rw [e]
  refine (shapeCast_apply _ shapeCasts_S4096_S4096x1 (ix2 (⟨r.val, r.isLt⟩ : Fin 4096) (0 : Fin 1)) (ix1 (⟨r.val, r.isLt⟩ : Fin 4096)) ?_).trans ?_
  · rw [Shape.rowMajor_val_one, Shape.rowMajor_val_two]
    show r.val = r.val * 1 + 0
    omega
  refine (rowSum_apply _ (⟨r.val, r.isLt⟩ : Fin 4096)).trans ?_
  unfold rowPenalty
  refine Finset.sum_congr rfl fun k _ => ?_
  simp only [minimumf_apply, subf_apply, broadcast_apply, scalar_ofBits, h]
  rfl

end Cert.KernelIdeal.Pay

end
-- ==== Proof.KernelValue.lean ====
/-
  The two arrays the kernel writes, after the run.

  Grid point `t` stages rows `4096·t … 4096·t + 4095` of the patches and the whole of the four code arrays, writes
  back the blended rows to the same rows of the first output, and the tile's penalty, repeated, to block `t` of the
  second.  The blocks tile both outputs, so each ends as one function of the patches and the codes.
-/
import proofs.«158663_j37005438222627_2_alg».proof.Proof.Gen.KernelIdeal.Frame
import proofs.«158663_j37005438222627_2_alg».proof.Proof.KernelArrays
import proofs.«158663_j37005438222627_2_alg».proof.Proof.KernelPay
import Idealize.ShloMosaic.Lib.Pipeline.Value

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx Cert.SoftBlend Cert.KernelIdeal.Arr Cert.KernelIdeal.Pay

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the patches and both outputs move with the point along their first axis;
    the code arrays stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- The tile a grid point works on. -/
def tileOf (t : Fin cfg0.N) : Fin 64 := ⟨t.val, by have h : t.val < grid0.N := t.isLt; rw [N_0] at h; exact h⟩

/-- The patches of the launch memory. -/
abbrev patchesAt (c : Dev nD) : (⟨S262144x64, .f32⟩ : BufTy).Contents (Elt Ideal) := patchesOf (m ((c : Thread nD τ).loc main_arg0))

/-! ## The staged blocks -/

theorem blk0_apply (c : Dev nD) (t : Fin cfg0.N) (r : Fin 4096) (l : Fin 64) :
    iblk m c 0 t (ix2 r l) = patchRow (patchesAt m c) (tileRow (tileOf t) r) l := by
  have e : iblk m c 0 t (ix2 r l) = V m c main_v3 (ix2 (tileRow (tileOf t) r) l) := by
    show V m c main_v3 (((cfg0.win 0).blk t).view.emb (ix2 r l)) = V m c main_v3 _
    refine congrArg (V m c main_v3) (funext fun a => Fin.ext ?_)
    obtain ⟨e0, e1, -⟩ := idx_facts t
    match a with
    | ⟨0, _⟩ => show win0_0.index t (0 : Fin 2) * 4096 + 1 * r.val = t.val * 4096 + r.val; omega
    | ⟨1, _⟩ => show win0_0.index t (1 : Fin 2) * 64 + 1 * l.val = l.val; omega
  rw [e, V_v3]; rfl

theorem blk1_apply (c : Dev nD) (t : Fin cfg0.N) (l : Fin 64) (k : Fin 256) :
    iblk m c 1 t (ix2 l k) = codeTab (codesAt m c) k l := by
  have e : iblk m c 1 t (ix2 l k) = (V m c main_v9 : S64x256.Idx → EReal) (ix2 l k) := by
    show V m c main_v9 (((cfg0.win 1).blk t).view.emb (ix2 l k)) = V m c main_v9 _
    refine congrArg (V m c main_v9) (funext fun a => Fin.ext ?_)
    obtain ⟨-, -, e0, e1, -⟩ := idx_facts t
    match a with
    | ⟨0, _⟩ => show win0_1.index t (0 : Fin 2) * 64 + 1 * l.val = l.val; omega
    | ⟨1, _⟩ => show win0_1.index t (1 : Fin 2) * 256 + 1 * k.val = k.val; omega
  rw [e]; exact V_v9_apply m c l k

theorem blk2_apply (c : Dev nD) (t : Fin cfg0.N) (l : Fin 64) (k : Fin 256) :
    iblk m c 2 t (ix2 l k) = codeTab (codesAt m c) k l - codeTab (codesAt m c) k l := by
  have e : iblk m c 2 t (ix2 l k) = (V m c main_v10 : S64x256.Idx → EReal) (ix2 l k) := by
    show V m c main_v10 (((cfg0.win 2).blk t).view.emb (ix2 l k)) = V m c main_v10 _
    refine congrArg (V m c main_v10) (funext fun a => Fin.ext ?_)
    obtain ⟨-, -, -, -, e0, e1, -⟩ := idx_facts t
    match a with
    | ⟨0, _⟩ => show win0_2.index t (0 : Fin 2) * 64 + 1 * l.val = l.val; omega
    | ⟨1, _⟩ => show win0_2.index t (1 : Fin 2) * 256 + 1 * k.val = k.val; omega
  rw [e]; exact V_v10_apply m c l k

theorem blk3_apply (c : Dev nD) (t : Fin cfg0.N) (k : Fin 256) (l : Fin 64) :
    iblk m c 3 t (ix2 k l) = codeTab (codesAt m c) k l := by
  have e : iblk m c 3 t (ix2 k l) = (V m c main_v5 : S256x64.Idx → EReal) (ix2 k l) := by
    show V m c main_v5 (((cfg0.win 3).blk t).view.emb (ix2 k l)) = V m c main_v5 _
    refine congrArg (V m c main_v5) (funext fun a => Fin.ext ?_)
    obtain ⟨-, -, -, -, -, -, e0, e1, -⟩ := idx_facts t
    match a with
    | ⟨0, _⟩ => show win0_3.index t (0 : Fin 2) * 256 + 1 * k.val = k.val; omega
    | ⟨1, _⟩ => show win0_3.index t (1 : Fin 2) * 64 + 1 * l.val = l.val; omega
  rw [e]; exact V_v5_apply m c k l

theorem blk4_apply (c : Dev nD) (t : Fin cfg0.N) (k : Fin 256) :
    iblk m c 4 t (ix2 (0 : Fin 1) k) = sqNorm (codeTab (codesAt m c) k) := by
  have e : iblk m c 4 t (ix2 (0 : Fin 1) k) = (V m c main_v13 : S1x256.Idx → EReal) (ix2 (0 : Fin 1) k) := by
    show V m c main_v13 (((cfg0.win 4).blk t).view.emb (ix2 (0 : Fin 1) k)) = V m c main_v13 _
    refine congrArg (V m c main_v13) (funext fun a => Fin.ext ?_)
    obtain ⟨-, -, -, -, -, -, -, -, e0, e1, -⟩ := idx_facts t
    match a with
    | ⟨0, _⟩ => show win0_4.index t (0 : Fin 2) * 1 + 1 * 0 = 0; omega
    | ⟨1, _⟩ => show win0_4.index t (1 : Fin 2) * 256 + 1 * k.val = k.val; omega
  rw [e]; exact V_v13_apply m c k

/-! ## What each point writes back -/

/-- The first output after the run: every patch the blend of the codes with its softmax weights. -/
def recon (c : Dev nD) : (⟨S262144x64, .f32⟩ : BufTy).Contents (Elt Ideal) :=
  reconOf (splitW (patchesAt m c) (codesAt m c)) (codesAt m c)

/-- The second output after the run: block `t` holds tile `t`'s penalty at every index. -/
def tilePen (c : Dev nD) : (⟨S64x8x128, .f32⟩ : BufTy).Contents (Elt Ideal) :=
  fun i => ∑ r : Fin 4096, rowPenalty (splitW (patchesAt m c) (codesAt m c) (tileRow ⟨(i 0).val, (i 0).isLt⟩ r))

theorem flushed5_eq (c : Dev nD) (t : Fin cfg0.N) :
    (dats m 0 c).flushed 5 t = ((cfg0.win 5).blk t).view.read (Elt Ideal) (recon m c) := by
  show (cfg0.win 5).cut (grid0.coords t) ((dats m 0 c).after 5 t) = _
  rw [after0_5]
  unfold out0_5
  rw [View.canon_unit_zero hz2]
  simp only [View.ld_unit_zero (S := S4096x64) hz2, View.ld_unit_zero (S := S64x256) hz2, View.ld_unit_zero (S := S1x256) hz2,
    View.ld_unit_zero (S := S256x64) hz2]
  funext j
  obtain ⟨r, l, rfl⟩ : ∃ (r : Fin 4096) (l : Fin 64), j = ix2 r l := ⟨j 0, j 1, eq_ix2 j⟩
  refine (pay3_apply (iblk m c 0 t) (iblk m c 1 t) (iblk m c 2 t) (iblk m c 4 t) (iblk m c 3 t)
    (fun r => patchRow (patchesAt m c) (tileRow (tileOf t) r)) (codeTab (codesAt m c))
    (blk0_apply m c t) (blk1_apply m c t) (blk2_apply m c t) (blk4_apply m c t) (blk3_apply m c t) r l).trans ?_
  show _ = recon m c (((cfg0.win 5).blk t).view.emb (ix2 r l))
  have hemb : ((cfg0.win 5).blk t).view.emb (ix2 r l) = ix2 (tileRow (tileOf t) r) l := funext fun a => Fin.ext (by
    obtain ⟨-, -, -, -, -, -, -, -, -, -, e0, e1, -⟩ := idx_facts t
    match a with
    | ⟨0, _⟩ => show win0_5.index t (0 : Fin 2) * 4096 + 1 * r.val = t.val * 4096 + r.val; omega
    | ⟨1, _⟩ => show win0_5.index t (1 : Fin 2) * 64 + 1 * l.val = l.val; omega)
  rw [hemb]
  rfl

theorem flushed6_eq (c : Dev nD) (t : Fin cfg0.N) :
    (dats m 0 c).flushed 6 t = ((cfg0.win 6).blk t).view.read (Elt Ideal) (tilePen m c) := by
  show (cfg0.win 6).cut (grid0.coords t) ((dats m 0 c).after 6 t) = _
  rw [after0_6]
  unfold out0_6
  rw [View.canon_unit_zero hz3]
  simp only [View.ld_unit_zero (S := S4096x64) hz2, View.ld_unit_zero (S := S64x256) hz2, View.ld_unit_zero (S := S1x256) hz2]
  funext y
  refine (pay1_apply (k0_pay2 (iblk m c 0 t) (iblk m c 1 t) (iblk m c 2 t) (iblk m c 4 t))
    (fun r => splitW (patchesAt m c) (codesAt m c) (tileRow (tileOf t) r))
    (fun r k => pay2_apply (iblk m c 0 t) (iblk m c 1 t) (iblk m c 2 t) (iblk m c 4 t)
      (fun r => patchRow (patchesAt m c) (tileRow (tileOf t) r)) (codeTab (codesAt m c))
      (blk0_apply m c t) (blk1_apply m c t) (blk2_apply m c t) (blk4_apply m c t) r k) y).trans ?_
  show _ = tilePen m c (((cfg0.win 6).blk t).view.emb y)
  unfold tilePen
  have hy : (y 0).val < 1 := (y 0).isLt
  have ht : (⟨((((cfg0.win 6).blk t).view.emb y) 0).val, ((((cfg0.win 6).blk t).view.emb y) 0).isLt⟩ : Fin 64) = tileOf t := Fin.ext (by
    obtain ⟨-, -, -, -, -, -, -, -, -, -, -, -, e0, -⟩ := idx_facts t
    show win0_6.index t (0 : Fin 3) * 1 + 1 * (y 0).val = t.val
    omega)
  rw [ht]

/-! ## The blocks tile the outputs -/

theorem mem_blk5 (t : Fin cfg0.N) (i : S262144x64.Idx) :
    i ∈ ((cfg0.win 5).blk t).view.set ↔ ∀ a : Fin 2, win0_5.index t a * S4096x64.size a ≤ (i a).val ∧ (i a).val < win0_5.index t a * S4096x64.size a + S4096x64.size a := by
  show i ∈ ((View.whole main_v14_0).slice (win0_5.rect t)).set ↔ _
  rw [View.set_slice_whole, Rect.mem_set_unit]
  exact Iff.rfl

theorem mem_blk6 (t : Fin cfg0.N) (i : S64x8x128.Idx) :
    i ∈ ((cfg0.win 6).blk t).view.set ↔ ∀ a : Fin 3, win0_6.index t a * S1x8x128.size a ≤ (i a).val ∧ (i a).val < win0_6.index t a * S1x8x128.size a + S1x8x128.size a := by
  show i ∈ ((View.whole main_v14_1).slice (win0_6.rect t)).set ↔ _
  rw [View.set_slice_whole, Rect.mem_set_unit]
  exact Iff.rfl

/-- Row `n` of the first output is in the block of point `n / 4096`. -/
theorem cover5 (i : S262144x64.Idx) : ∃ t : Fin cfg0.N, (cfg0.win 5).flush t = true ∧ i ∈ ((cfg0.win 5).blk t).view.set := by
  have h0 : (i 0).val < 262144 := (i 0).isLt
  have h1 : (i 1).val < 64 := (i 1).isLt
  have hN : (i 0).val / 4096 < cfg0.N := by show _ < grid0.N; rw [N_0]; omega
  refine ⟨⟨(i 0).val / 4096, hN⟩, flush0_5 _, ?_⟩
  rw [mem_blk5]
  obtain ⟨-, -, -, -, -, -, -, -, -, -, e0, e1, -⟩ := idx_facts ⟨(i 0).val / 4096, hN⟩
  have e0' : win0_5.index ⟨(i 0).val / 4096, hN⟩ (0 : Fin 2) = (i 0).val / 4096 := e0
  intro a
  match a with
  | ⟨0, _⟩ =>
    show win0_5.index ⟨(i 0).val / 4096, hN⟩ (0 : Fin 2) * 4096 ≤ (i 0).val ∧ (i 0).val < win0_5.index ⟨(i 0).val / 4096, hN⟩ (0 : Fin 2) * 4096 + 4096
    omega
  | ⟨1, _⟩ =>
    show win0_5.index ⟨(i 0).val / 4096, hN⟩ (1 : Fin 2) * 64 ≤ (i 1).val ∧ (i 1).val < win0_5.index ⟨(i 0).val / 4096, hN⟩ (1 : Fin 2) * 64 + 64
    omega

/-- Block `b` of the second output is point `b`'s. -/
theorem cover6 (i : S64x8x128.Idx) : ∃ t : Fin cfg0.N, (cfg0.win 6).flush t = true ∧ i ∈ ((cfg0.win 6).blk t).view.set := by
  have h0 : (i 0).val < 64 := (i 0).isLt
  have h1 : (i 1).val < 8 := (i 1).isLt
  have h2 : (i 2).val < 128 := (i 2).isLt
  have hN : (i 0).val < cfg0.N := by show _ < grid0.N; rw [N_0]; exact h0
  refine ⟨⟨(i 0).val, hN⟩, flush0_6 _, ?_⟩
  rw [mem_blk6]
  obtain ⟨-, -, -, -, -, -, -, -, -, -, -, -, e0, e1, e2⟩ := idx_facts ⟨(i 0).val, hN⟩
  have e0' : win0_6.index ⟨(i 0).val, hN⟩ (0 : Fin 3) = (i 0).val := e0
  intro a
  match a with
  | ⟨0, _⟩ =>
    show win0_6.index ⟨(i 0).val, hN⟩ (0 : Fin 3) * 1 ≤ (i 0).val ∧ (i 0).val < win0_6.index ⟨(i 0).val, hN⟩ (0 : Fin 3) * 1 + 1
    omega
  | ⟨1, _⟩ =>
    show win0_6.index ⟨(i 0).val, hN⟩ (1 : Fin 3) * 8 ≤ (i 1).val ∧ (i 1).val < win0_6.index ⟨(i 0).val, hN⟩ (1 : Fin 3) * 8 + 8
    omega
  | ⟨2, _⟩ =>
    show win0_6.index ⟨(i 0).val, hN⟩ (2 : Fin 3) * 128 ≤ (i 2).val ∧ (i 2).val < win0_6.index ⟨(i 0).val, hN⟩ (2 : Fin 3) * 128 + 128
    omega

/-! ## The arrays after the run -/

theorem final5 (c : Dev nD) : (dats m 0 c).arrAt 5 cfg0.N = recon m c :=
  (dats m 0 c).arrAt_eq_of_cover 5 (recon m c) (fun t _ => flushed5_eq m c t) cover5

theorem final6 (c : Dev nD) : (dats m 0 c).arrAt 6 cfg0.N = tilePen m c :=
  (dats m 0 c).arrAt_eq_of_cover 6 (tilePen m c) (fun t _ => flushed6_eq m c t) cover6

end Cert.KernelIdeal.Val

end
-- ==== Proof.KernelRun.lean ====
/-
  The kernel program's two results: the host operations after the launch applied to the two arrays the kernel wrote.
-/
import proofs.«158663_j37005438222627_2_alg».proof.Proof.KernelValue
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.ValueIdx Cert.SoftBlend Cert.KernelIdeal.Arr Cert.KernelIdeal.Val

variable (m : (ℓ : Loc nD τ sig) → Buf (Elt Ideal) ℓ) (ρ : Dev nD → PrngReg)

/-- The patches put back as an image: two reshapes, a transpose and a reshape (never opened). -/
def imageOf (x : (⟨S262144x64, .f32⟩ : BufTy).Contents (Elt Ideal)) : (⟨S64x1x512x512, .f32⟩ : BufTy).Contents (Elt Ideal) :=
  shapeCast _ (transpose S64x1x64x8x64x8 [0, 3, 1, 4, 2, 5] (shapeCast _ (shapeCast _ x shapeCasts_S262144x64_S64x4096x64)
    shapeCasts_S64x4096x64_S64x64x64x1x8x8) transposes_S64x64x64x1x8x8_S64x1x64x8x64x8_0_3_1_4_2_5) shapeCasts_S64x1x64x8x64x8_S64x1x512x512

/-- The host's reading of the penalty blocks: entry `(b, 0, 0)` of each block, summed from zero, over the row count. -/
def penOf (y : (⟨S64x8x128, .f32⟩ : BufTy).Contents (Elt Ideal)) : (⟨S_, .f32⟩ : BufTy).Contents (Elt Ideal) :=
  Host.divf (F := Ideal) (Host.reduceAdd (F := Ideal) (shapeCast _ (extractStridedSlice S64x1x1 ![0, 0, 0] y slices_S64x8x128_S64x1x1_0_0_0) shapeCasts_S64x1x1_S64)
    (constant (F := Ideal) S_ .f32 0x00000000#32) reducesTo_S64_S_d0 h_S_) (constant (F := Ideal) S_ .f32 0x48800000#32)

theorem tail18 (c : Dev nD) :
    Pipeline.afterTail₀ cfgs (dats m) 0 (V0 m) [hostOps1] c main_v18 = imageOf (recon m c) := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.tc.devRef main_v14_0) = recon m c :=
    (Pipeline.withArrays_arr spec0 launch0.win.arr_inj c _ _ 5).trans (final5 m c)
  rw [hw]
  rfl

theorem tail22 (c : Dev nD) :
    Pipeline.afterTail₀ cfgs (dats m) 0 (V0 m) [hostOps1] c main_v22 = penOf (tilePen m c) := by
  unfold Pipeline.afterTail₀
  show StableHlo.after hostOps1 _ (Proc.devRef .tc main_v22) = _
  after_results
  have hw : Pipeline.withArrays (cfgs 0).spec c (V0 m c) (fun w => (dats m 0 c).arrAt w (cfgs 0).N) (Proc.tc.devRef main_v14_1) = tilePen m c :=
    (Pipeline.withArrays_arr spec0 launch0.win.arr_inj c _ _ 6).trans (final6 m c)
  rw [hw]
  rfl

/-- A one-axis index is its coordinate. -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's reading of the penalty blocks, as a sum over the 64 tiles. -/
theorem penOf_apply (y : (⟨S64x8x128, .f32⟩ : BufTy).Contents (Elt Ideal)) (i : S_.Idx) :
    penOf y i = Ideal.div (Ideal.ofBits .f32 0x00000000#32 + ∑ b : Fin 64, y (ix3 b (0 : Fin 8) (0 : Fin 128)))
      (Ideal.ofBits .f32 0x48800000#32) := by
  unfold penOf
  show Ideal.div (Host.reduceAdd (F := Ideal) _ _ reducesTo_S64_S_d0 h_S_ i) (Ideal.ofBits .f32 0x48800000#32) = _
  refine congrArg (fun z => Ideal.div z (Ideal.ofBits .f32 0x48800000#32)) ?_
  simp only [Host.reduceAdd, Ideal.hostReduceAdd_def]
  rw [Ideal.hostReduceAdd_total reducesTo_S64_S_d0 (fun b => b.elim0), sum_idx1]
  refine congrArg (_ + ·) (Finset.sum_congr rfl fun b _ => ?_)
  refine (shapeCast_apply _ shapeCasts_S64x1x1_S64 (ix1 b) (ix3 b (0 : Fin 1) (0 : Fin 1)) ?_).trans ?_
  · rw [Shape.rowMajor_val_three, Shape.rowMajor_val_one]
    show (b.val * 1 + 0) * 1 + 0 = b.val
    omega
  · exact extractStridedSlice_apply ![0, 0, 0] y slices_S64x8x128_S64x1x1_0_0_0 (ix3 b (0 : Fin 1) (0 : Fin 1)) (ix3 b (0 : Fin 8) (0 : Fin 128)) (fun a => by
      match a with
      | ⟨0, _⟩ => show b.val = 0 + b.val; omega
      | ⟨1, _⟩ => show 0 = 0 + 0; rfl
      | ⟨2, _⟩ => show 0 = 0 + 0; rfl)

/-- The kernel program's penalty: the tiled penalty of the split-logit weights. -/
theorem pen_eq (c : Dev nD) (i : S_.Idx) :
    penOf (tilePen m c) i = tiledPenalty (splitW (patchesAt m c) (codesAt m c)) := by
  rw [penOf_apply]
  rfl

/-- The kernel program's run, read: the image of the blended patches, the tiled penalty, the arguments kept. -/
theorem run : θ_run defs (onTc (τ := τ) (main (F := Ideal))) ⟨m, fun _ => 0, ρ⟩ fun r => ∀ c : Dev nD,
      r.2.mem ((c.tc : Thread nD τ).loc main_v18) = imageOf (recon m c)
      ∧ r.2.mem ((c.tc : Thread nD τ).loc main_v22) = (fun _ => tiledPenalty (splitW (patchesAt m c) (codesAt m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans (tail18 m c),
      ((h c).2 main_v22 (Pipeline.mem_restRefs_of main_v22 (by decide) (by decide))).trans ((tail22 m c).trans (funext fun i => pen_eq m c i)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Tail

end
-- ==== Proof.RefValue.lean ====
/-
  The reference's operations, read row by row: its 262144 × 256 block of softmax weights is `distW` of the patches and
  the codes, its blended result `reconOf` of them, and its penalty their `meanPenalty`.
-/
import proofs.«158663_j37005438222627_2_alg».proof.Proof.Gen.ReferenceIdeal.Read
import proofs.«158663_j37005438222627_2_alg».proof.Proof.Layout

noncomputable section

namespace Cert.ReferenceIdeal.RefValue

open Cert.ReferenceIdeal Cert.ReferenceIdeal.Gen Cert.ReferenceIdeal.Read Idealize.ShloMosaic Idealize.ShloMosaic.ValueIdx
open Cert.SoftBlend

/-! ### The row's pieces, read at an index -/

/-- `‖p‖²` of row `n`, broadcast along the codes. -/
theorem sqP_apply (x0 : (⟨S64x1x512x512, .f32⟩ : BufTy).Contents (Elt Ideal)) (n : Fin 262144) (k : Fin 256) :
    val_main_v14 (F := Ideal) x0 (ix2 n k) = sqNorm (patchRow (val_main_v3 (F := Ideal) x0) n) := by
  rw [val_main_v14_apply, val_main_v7_apply, val_main_v6_apply, val_main_cst_apply, Ideal.ofBits_def]
  unfold sqNorm patchRow
  refine congrArg (_ + ·) (Finset.sum_congr rfl fun l _ => ?_)
  rw [val_main_v5_apply, Ideal.mulf_def]
  have e : idx_main_v6 (idx_main_v7 (idx_main_v14 (ix2 n k))) l = ix2 n l :=
    funext fun a => Fin.ext (by match a with | ⟨0, _⟩ => rfl | ⟨1, _⟩ => rfl)
  rw [e]

/-- `‖C k‖²` of code `k`, broadcast along the rows. -/
theorem sqC_apply (x1 : (⟨S256x8x8, .f32⟩ : BufTy).Contents (Elt Ideal)) (n : Fin 262144) (k : Fin 256) :
    val_main_v17 (F := Ideal) x1 (ix2 n k) = sqNorm (codeTab (val_main_v4 (F := Ideal) x1) k) := by
  rw [val_main_v17_apply, val_main_v16_apply, val_main_v9_apply, val_main_cst_0_apply, Ideal.ofBits_def]
  unfold sqNorm codeTab
  refine congrArg (_ + ·) (Finset.sum_congr rfl fun l _ => ?_)
  rw [val_main_v8_apply, Ideal.mulf_def]
  have e : idx_main_v9 (idx_main_v16 (idx_main_v17 (ix2 n k))) l = ix2 k l :=
    funext fun a => Fin.ext (by match a with | ⟨0, _⟩ => rfl | ⟨1, _⟩ => rfl)
  rw [e]

/-- `⟨p, C k⟩` of row `n` and code `k`. -/
theorem dot_apply (x0 : (⟨S64x1x512x512, .f32⟩ : BufTy).Contents (Elt Ideal)) (x1 : (⟨S256x8x8, .f32⟩ : BufTy).Contents (Elt Ideal)) (n : Fin 262144) (k : Fin 256) :
    val_main_v11 (F := Ideal) x0 x1 (ix2 n k)
      = ∑ l : Fin 64, patchRow (val_main_v3 (F := Ideal) x0) n l * codeTab (val_main_v4 (F := Ideal) x1) k l := by
  rw [val_main_v11_apply]
  unfold patchRow codeTab
  refine Finset.sum_congr rfl fun l _ => ?_
  rw [val_main_v10_apply]
  have e1 : lidx_main_v11 (ix2 n k) l = ix2 n l :=
    funext fun a => Fin.ext (by match a with | ⟨0, _⟩ => rfl | ⟨1, _⟩ => rfl)
  have e2 : idx_main_v10 (ridx_main_v11 (ix2 n k) l) = ix2 k l :=
    funext fun a => Fin.ext (by match a with | ⟨0, _⟩ => rfl | ⟨1, _⟩ => rfl)
  rw [e1, e2]

/-- The reference's logits at row `n`, code `k`. -/
theorem logit_apply (x0 : (⟨S64x1x512x512, .f32⟩ : BufTy).Contents (Elt Ideal)) (x1 : (⟨S256x8x8, .f32⟩ : BufTy).Contents (Elt Ideal)) (n : Fin 262144) (k : Fin 256) :
    val_main_v20 (F := Ideal) x0 x1 (ix2 n k)
      = distLogit (patchRow (val_main_v3 (F := Ideal) x0) n) (codeTab (val_main_v4 (F := Ideal) x1)) k := by
  rw [val_main_v20_apply, val_main_v19_apply, val_main_cst_2_apply, val_main_v18_apply, val_main_v15_apply,
    val_main_v13_apply, val_main_v12_apply, val_main_cst_1_apply, sqP_apply, dot_apply, sqC_apply]
  rfl

/-- The reference's fold of `max` along row `n`. -/
theorem fold_apply (x0 : (⟨S64x1x512x512, .f32⟩ : BufTy).Contents (Elt Ideal)) (x1 : (⟨S256x8x8, .f32⟩ : BufTy).Contents (Elt Ideal)) (n : Fin 262144) :
    val_main_v21 (F := Ideal) x0 x1 (ix1 n)
      = (Finset.univ : Finset (Fin 256)).fold max (Ideal.ofBits .f32 0xFF800000#32)
          (distLogit (patchRow (val_main_v3 (F := Ideal) x0) n) (codeTab (val_main_v4 (F := Ideal) x1))) := by
  have h : S262144x256.Reduces [1] S262144 := by decide
  have e1 := Host.reduce_eq_fold_single (FloatOps.maximumf (F := Ideal) (φ := .f32)) (val_main_v20 (F := Ideal) x0 x1)
    (val_main_cst_3 (F := Ideal)) reducesTo_S262144x256_S262144_d1 h h_S_ (ix1 n)
  have e2 : (Finset.univ : Finset (Fin (S262144x256.size 1))).fold (FloatOps.maximumf (F := Ideal) (φ := .f32))
        (val_main_cst_3 (F := Ideal) (Shape.Idx.first h_S_)) (val_main_v20 (F := Ideal) x0 x1 ∘ h.lift (ix1 n))
      = (Finset.univ : Finset (Fin 256)).fold max (Ideal.ofBits .f32 0xFF800000#32)
          (distLogit (patchRow (val_main_v3 (F := Ideal) x0) n) (codeTab (val_main_v4 (F := Ideal) x1))) := by
    rw [val_main_cst_3_apply, Ideal.ofBits_def]
    refine Finset.fold_congr fun (k : Fin 256) _ => ?_
    have e : h.lift (ix1 n) k = ix2 n k :=
      funext fun c => Fin.ext (by match c with | ⟨0, _⟩ => rfl | ⟨1, _⟩ => rfl)
    exact (congrArg (val_main_v20 (F := Ideal) x0 x1) e).trans (logit_apply x0 x1 n k)
  unfold val_main_v21
  exact e1.trans e2

/-- The reference's row maximum at row `n`. -/
theorem rowMax_apply (x0 : (⟨S64x1x512x512, .f32⟩ : BufTy).Contents (Elt Ideal)) (x1 : (⟨S256x8x8, .f32⟩ : BufTy).Contents (Elt Ideal)) (n : Fin 262144) :
    val_main_v23 (F := Ideal) x0 x1 (ix1 n)
      = rowMax (distLogit (patchRow (val_main_v3 (F := Ideal) x0) n) (codeTab (val_main_v4 (F := Ideal) x1))) := by
  rw [val_main_v23_apply, val_main_v22_apply, val_main_cst_4_apply, Ideal.maximumf_def, Ideal.ofBits_def, fold_apply]
  rfl

/-- The reference's softmax numerator at row `n`, code `k`. -/
theorem exp_apply (x0 : (⟨S64x1x512x512, .f32⟩ : BufTy).Contents (Elt Ideal)) (x1 : (⟨S256x8x8, .f32⟩ : BufTy).Contents (Elt Ideal)) (n : Fin 262144) (k : Fin 256) :
    val_main_v27 (F := Ideal) x0 x1 (ix2 n k)
      = expShift (distLogit (patchRow (val_main_v3 (F := Ideal) x0) n) (codeTab (val_main_v4 (F := Ideal) x1))) k := by
  have e : idx_main_v24 (idx_main_v25 (ix2 n k)) = ix1 n :=
    funext fun a => Fin.ext (by match a with | ⟨0, _⟩ => rfl)
  rw [val_main_v27_apply, Ideal.hostUnary_exp_def, val_main_v26_apply, Ideal.subf_def, val_main_v25_apply,
    val_main_v24_apply, e, rowMax_apply, logit_apply]
  rfl

/-- The reference's softmax denominator at row `n`, broadcast along the codes. -/
theorem denom_apply (x0 : (⟨S64x1x512x512, .f32⟩ : BufTy).Contents (Elt Ideal)) (x1 : (⟨S256x8x8, .f32⟩ : BufTy).Contents (Elt Ideal)) (n : Fin 262144) (k : Fin 256) :
    val_main_v30 (F := Ideal) x0 x1 (ix2 n k)
      = ∑ j : Fin 256, expShift (distLogit (patchRow (val_main_v3 (F := Ideal) x0) n) (codeTab (val_main_v4 (F := Ideal) x1))) j := by
  rw [val_main_v30_apply, val_main_v29_apply, val_main_v28_apply, val_main_cst_5_apply, Ideal.ofBits_def,
    Ideal.ofBits_zero_f32, zero_add]
  refine Finset.sum_congr rfl fun j _ => ?_
  have e : idx_main_v28 (idx_main_v29 (idx_main_v30 (ix2 n k))) j = ix2 n j :=
    funext fun a => Fin.ext (by match a with | ⟨0, _⟩ => rfl | ⟨1, _⟩ => rfl)
  rw [e, exp_apply]

/-- The reference's softmax weights at row `n`, code `k`. -/
theorem weights_apply (x0 : (⟨S64x1x512x512, .f32⟩ : BufTy).Contents (Elt Ideal)) (x1 : (⟨S256x8x8, .f32⟩ : BufTy).Contents (Elt Ideal))
    (n : Fin 262144) (k : Fin 256) :
    val_main_v31 (F := Ideal) x0 x1 (ix2 n k) = distW (val_main_v3 (F := Ideal) x0) (val_main_v4 (F := Ideal) x1) n k := by
  rw [val_main_v31_apply, Ideal.hostDivf_def, exp_apply, denom_apply]
  rfl

/-- The reference's blended patches. -/
theorem recon_eq (x0 : (⟨S64x1x512x512, .f32⟩ : BufTy).Contents (Elt Ideal)) (x1 : (⟨S256x8x8, .f32⟩ : BufTy).Contents (Elt Ideal)) :
    val_main_v32 (F := Ideal) x0 x1
      = reconOf (distW (val_main_v3 (F := Ideal) x0) (val_main_v4 (F := Ideal) x1)) (val_main_v4 (F := Ideal) x1) := by
  funext i
  obtain ⟨n, l, rfl⟩ : ∃ (n : Fin 262144) (l : Fin 64), i = ix2 n l := ⟨i 0, i 1, eq_ix2 i⟩
  rw [val_main_v32_apply]
  unfold reconOf blend codeTab
  refine Finset.sum_congr rfl fun k _ => ?_
  have e1 : lidx_main_v32 (ix2 n l) k = ix2 n k :=
    funext fun a => Fin.ext (by match a with | ⟨0, _⟩ => rfl | ⟨1, _⟩ => rfl)
  have e2 : ridx_main_v32 (ix2 n l) k = ix2 k l :=
    funext fun a => Fin.ext (by match a with | ⟨0, _⟩ => rfl | ⟨1, _⟩ => rfl)
  rw [e1, e2, weights_apply]

/-- The reference's penalty. -/
theorem penalty_eq (x0 : (⟨S64x1x512x512, .f32⟩ : BufTy).Contents (Elt Ideal)) (x1 : (⟨S256x8x8, .f32⟩ : BufTy).Contents (Elt Ideal))
    (i : S_.Idx) :
    val_main_v42 (F := Ideal) x0 x1 i = meanPenalty (distW (val_main_v3 (F := Ideal) x0) (val_main_v4 (F := Ideal) x1)) := by
  have hs : ∑ j : S262144x256.Idx, val_main_v39 (F := Ideal) x0 x1 j
      = ∑ n : Fin 262144, ∑ k : Fin 256,
          min (distW (val_main_v3 (F := Ideal) x0) (val_main_v4 (F := Ideal) x1) n k)
            (Ideal.ofBits .f32 0x3F800000#32 - distW (val_main_v3 (F := Ideal) x0) (val_main_v4 (F := Ideal) x1) n k) := by
    rw [sum_idx2]
    refine Finset.sum_congr rfl fun n _ => Finset.sum_congr rfl fun k _ => ?_
    rw [val_main_v39_apply, val_main_v38_apply, val_main_v37_apply, val_main_cst_6_apply, Ideal.minimumf_def,
      Ideal.subf_def, Ideal.ofBits_def, weights_apply]
  rw [val_main_v42_apply, val_main_v41_apply, val_main_v40_apply, hs]
  rw [val_main_cst_7_apply, val_main_cst_8_apply, val_main_cst_9_apply]
  rw [Ideal.mulf_def, Ideal.hostDivf_def, Ideal.ofBits_def, Ideal.ofBits_def, Ideal.ofBits_def]
  rfl

end Cert.ReferenceIdeal.RefValue

end
-- ==== Proof.Algebra.lean ====
/-
  The two ways of forming the softmax weights agree on finite data, and the two ways of averaging the
  penalty agree always.
-/
import proofs.«158663_j37005438222627_2_alg».proof.Proof.Spec

noncomputable section

namespace Cert.SoftBlend

open Idealize.ShloMosaic

/-! ### The literals -/

theorem lit_negInf : Ideal.ofBits .f32 0xFF800000#32 = ⊥ := by simp [Ideal.ofBits, Ideal.ieee]

theorem lit_negThirtyFive : Ideal.ofBits .f32 0xC20C0000#32 = ((-35 : ℝ) : EReal) := by
  simp [Ideal.ofBits, Ideal.ieee, -EReal.coe_mul]
  norm_num

theorem lit_two : Ideal.ofBits .f32 0x40000000#32 = ((2 : ℝ) : EReal) := by
  simp [Ideal.ofBits, Ideal.ieee, -EReal.coe_mul]
  norm_num

theorem lit_pow18 : Ideal.ofBits .f32 0x48800000#32 = ((262144 : ℝ) : EReal) := by
  simp [Ideal.ofBits, Ideal.ieee, -EReal.coe_mul]
  norm_num

theorem lit_pow26 : Ideal.ofBits .f32 0x4C800000#32 = ((67108864 : ℝ) : EReal) := by
  simp [Ideal.ofBits, Ideal.ieee, -EReal.coe_mul]
  norm_num

theorem lit_pow8 : Ideal.ofBits .f32 0x43800000#32 = ((256 : ℝ) : EReal) := by
  simp [Ideal.ofBits, Ideal.ieee, -EReal.coe_mul]
  norm_num

/-! ### Finite data: everything is a coerced real -/

/-- A finite sum of finite numbers is the finite number of the real sum. -/
theorem coe_sum {ι : Type*} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

/-- The split logits on finite data: the low parts `x − x` vanish, so the two extra passes add nothing. -/
theorem splitLogit_coe (p' : Fin 64 → ℝ) (C' : Fin 256 → Fin 64 → ℝ) (k : Fin 256) :
    splitLogit (fun l => (p' l : EReal)) (fun k l => (C' k l : EReal)) k
      = ((-35 * ((∑ l, C' k l * C' k l) - 2 * ∑ l, p' l * C' k l) : ℝ) : EReal) := by
  simp only [splitLogit, sqNorm, Ideal.ofBits_zero_f32, zero_add, lit_negThirtyFive, lit_two,
    ← EReal.coe_sub, ← EReal.coe_mul, coe_sum, ← EReal.coe_add]
  congr 1
  simp only [sub_self, mul_zero, zero_mul, Finset.sum_const_zero, add_zero]

/-- The distance logits on finite data: the split logits plus the row constant `-35 · ‖p‖²`. -/
theorem distLogit_coe (p' : Fin 64 → ℝ) (C' : Fin 256 → Fin 64 → ℝ) (k : Fin 256) :
    distLogit (fun l => (p' l : EReal)) (fun k l => (C' k l : EReal)) k
      = ((-35 * ((∑ l, C' k l * C' k l) - 2 * ∑ l, p' l * C' k l) + -35 * ∑ l, p' l * p' l : ℝ) : EReal) := by
  simp only [distLogit, sqNorm, Ideal.ofBits_zero_f32, zero_add, lit_negThirtyFive, lit_two,
    ← EReal.coe_sub, ← EReal.coe_mul, coe_sum, ← EReal.coe_add]
  congr 1
  ring

/-! ### A softmax does not see a constant added to the whole row -/

/-- Adding a finite constant to a row adds it to the row's maximum. -/
theorem rowMax_shift (L : Fin 256 → ℝ) (c : ℝ) :
    rowMax (fun k => ((L k + c : ℝ) : EReal)) = rowMax (fun k => (L k : EReal)) + (c : EReal) := by
  unfold rowMax
  rw [lit_negInf, max_bot_left, max_bot_left]
  have h := Finset.fold_hom (op := max) (op' := max) (f := fun k => (L k : EReal)) (b := (⊥ : EReal))
    (s := (Finset.univ : Finset (Fin 256))) (m := fun x : EReal => x + (c : EReal))
    (fun x y => Monotone.map_max (fun a b hab => add_le_add hab le_rfl))
  simp only [EReal.bot_add] at h
  simp only [EReal.coe_add]
  exact h

/-- The shift cancels in the difference from the maximum, whatever the maximum is. -/
theorem coe_add_sub_add (a c : ℝ) (M : EReal) :
    ((a + c : ℝ) : EReal) - (M + (c : EReal)) = (a : EReal) - M := by
  induction M using EReal.rec with
  | bot => rw [EReal.bot_add, EReal.coe_sub_bot, EReal.coe_sub_bot]
  | coe m =>
    rw [← EReal.coe_add, ← EReal.coe_sub, ← EReal.coe_sub]
    congr 1
    ring
  | top => rw [EReal.top_add_coe, EReal.sub_top, EReal.sub_top]

/-- The softmax weights of a finite row do not change when a finite constant is added to the row. -/
theorem weights_shift (L : Fin 256 → ℝ) (c : ℝ) :
    weights (fun k => ((L k + c : ℝ) : EReal)) = weights (fun k => (L k : EReal)) := by
  have hE : expShift (fun k => ((L k + c : ℝ) : EReal)) = expShift (fun k => (L k : EReal)) := by
    funext k
    show Ideal.exp (((L k + c : ℝ) : EReal) - rowMax (fun k => ((L k + c : ℝ) : EReal)))
      = Ideal.exp ((L k : EReal) - rowMax (fun k => (L k : EReal)))
    rw [rowMax_shift, coe_add_sub_add]
  funext k
  unfold weights
  rw [hE]

/-- On finite data the split logits give the softmax weights of the distance logits. -/
theorem weights_splitLogit (p : Fin 64 → EReal) (C : Fin 256 → Fin 64 → EReal)
    (hp : ∀ l, ∃ r : ℝ, p l = (r : EReal)) (hC : ∀ k l, ∃ r : ℝ, C k l = (r : EReal)) :
    weights (splitLogit p C) = weights (distLogit p C) := by
  choose p' hp' using hp
  choose C' hC' using hC
  obtain rfl : p = fun l => (p' l : EReal) := funext hp'
  obtain rfl : C = fun k l => (C' k l : EReal) := funext fun k => funext (hC' k)
  have hs : splitLogit (fun l => (p' l : EReal)) (fun k l => (C' k l : EReal))
      = fun k => ((-35 * ((∑ l, C' k l * C' k l) - 2 * ∑ l, p' l * C' k l) : ℝ) : EReal) :=
    funext (splitLogit_coe p' C')
  have hd : distLogit (fun l => (p' l : EReal)) (fun k l => (C' k l : EReal))
      = fun k => ((-35 * ((∑ l, C' k l * C' k l) - 2 * ∑ l, p' l * C' k l)
          + -35 * ∑ l, p' l * p' l : ℝ) : EReal) :=
    funext (distLogit_coe p' C')
  rw [hs, hd, weights_shift]

/-- Re-indexing the `2¹⁸` rows as 64 tiles of 4096 rows. -/
theorem sum_tileRow {M : Type*} [AddCommMonoid M] (f : Fin 262144 → M) :
    ∑ n : Fin 262144, f n = ∑ t : Fin 64, ∑ r : Fin 4096, f (tileRow t r) := by
  rw [← Fintype.sum_prod_type' (f := fun (t : Fin 64) (r : Fin 4096) => f (tileRow t r))]
  refine (Fintype.sum_equiv (finProdFinEquiv (m := 64) (n := 4096)) _ f ?_).symm
  intro x
  congr 1
  apply Fin.ext
  simp only [tileRow, finProdFinEquiv_apply_val]
  ring

/-- Summing tile by tile over `2¹⁸` rows is the mean over `2²⁶` weights times `2⁸`. -/
theorem tiledPenalty_eq_meanPenalty (W : Fin 262144 → Fin 256 → EReal) :
    tiledPenalty W = meanPenalty W := by
  unfold tiledPenalty meanPenalty
  rw [lit_pow18, lit_pow26, lit_pow8, Ideal.div_coe (by norm_num), Ideal.div_coe (by norm_num),
    sum_tileRow (fun n => ∑ k : Fin 256, min (W n k) (Ideal.ofBits .f32 0x3F800000#32 - W n k)),
    mul_assoc, ← EReal.coe_mul]
  simp only [rowPenalty]
  norm_num

end Cert.SoftBlend

end
-- ==== Proof.Finite.lean ====
/-
  The precondition read back: every entry of both inputs is a real number.
-/
import proofs.«158663_j37005438222627_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Cert.Pre_finite_inputs.Gen Idealize.ShloMosaic

instance : Subsingleton S_.Idx := ⟨fun a b => funext fun d => d.elim0⟩

/-- An extended real whose absolute value is below `+∞` is a real. -/
theorem real_of_abs_lt (x : EReal) (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | top => simp [Ideal.cmp] at h
  | coe r => exact ⟨r, rfl⟩

/-- Under the precondition both inputs hold reals only. -/
theorem finite_of_pre (x0 : FVec Ideal S64x1x512x512 .f32) (x1 : FVec Ideal S256x8x8 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  constructor
  · intro i
    exact real_of_abs_lt _ (Host.reduce_andi_all _ _ _ _ _ ha i)
  · intro i
    exact real_of_abs_lt _ (Host.reduce_andi_all _ _ _ _ _ hb i)

end Cert.Pre_finite_inputs.Finite

end
-- ==== Proof.Bridge.lean ====
/-
  The two programs end with equal results.

  Both cut the image into the same patches and flatten the codebook into the same codes (the same host layout
  operations), and both put the blended patches back into an image the same way; between, each forms every patch's softmax
  weights over the codes — one from the expanded squared distances, the other from logits without the row constant
  and with the inner product taken in three passes — and these weights agree because the inputs are finite
  (Proof/Algebra.lean).  The penalty is one sum of `min (w, 1 − w)` over all weights, taken tile by tile and divided
  by `2¹⁸` in one program and taken at once, divided by `2²⁶` and multiplied by `2⁸` in the other.
-/
import proofs.«158663_j37005438222627_2_alg».proof.Proof.KernelRun
import proofs.«158663_j37005438222627_2_alg».proof.Proof.RefValue
import proofs.«158663_j37005438222627_2_alg».proof.Proof.Algebra
import proofs.«158663_j37005438222627_2_alg».proof.Proof.Finite
import proofs.«158663_j37005438222627_2_alg».proof.Defs

noncomputable section

namespace Cert.Proof.Bridge

open Idealize.ShloMosaic Idealize.ShloMosaic.TcCoe Idealize.SL.Sem Cert.SoftBlend
open Cert.KernelIdeal.Arr Cert.KernelIdeal.Val Cert.KernelIdeal.Tail

/-- Every entry of the patch array is an entry of the image. -/
theorem patches_entry (x0 : (⟨Cert.KernelIdeal.S64x1x512x512, .f32⟩ : BufTy).Contents (Elt Ideal)) (i : Cert.KernelIdeal.S262144x64.Idx) :
    ∃ j, patchesOf x0 i = x0 j := by
  unfold patchesOf shapeCast transpose
  exact ⟨_, rfl⟩

/-- Every entry of the code array is an entry of the codebook. -/
theorem codes_entry (x1 : (⟨Cert.KernelIdeal.S256x8x8, .f32⟩ : BufTy).Contents (Elt Ideal)) (i : Cert.KernelIdeal.S256x64.Idx) :
    ∃ j, codesOf x1 i = x1 j := by
  unfold codesOf shapeCast
  exact ⟨_, rfl⟩

/-- The two programs cut the image into patches by the same operations. -/
theorem patches_eq (x0 : (⟨Cert.KernelIdeal.S64x1x512x512, .f32⟩ : BufTy).Contents (Elt Ideal)) :
    Cert.ReferenceIdeal.Read.val_main_v3 (F := Ideal) x0 = patchesOf x0 := rfl

/-- … and flatten the codes by the same operation. -/
theorem codes_eq (x1 : (⟨Cert.KernelIdeal.S256x8x8, .f32⟩ : BufTy).Contents (Elt Ideal)) :
    Cert.ReferenceIdeal.Read.val_main_v4 (F := Ideal) x1 = codesOf x1 := rfl

/-- … and put the patches back into an image by the same operations. -/
theorem image_eq (x0 : (⟨Cert.KernelIdeal.S64x1x512x512, .f32⟩ : BufTy).Contents (Elt Ideal)) (x1 : (⟨Cert.KernelIdeal.S256x8x8, .f32⟩ : BufTy).Contents (Elt Ideal)) :
    Cert.ReferenceIdeal.Read.val_main_v36 (F := Ideal) x0 x1 = imageOf (Cert.ReferenceIdeal.Read.val_main_v32 (F := Ideal) x0 x1) := rfl

/-- On finite patches and codes the two ways of forming the weights agree, row by row. -/
theorem splitW_eq_distW (P : SP.Idx → EReal) (C : SC.Idx → EReal) (hP : ∀ i, ∃ r : ℝ, P i = (r : EReal)) (hC : ∀ i, ∃ r : ℝ, C i = (r : EReal)) :
    splitW P C = distW P C :=
  funext fun n => weights_splitLogit (patchRow P n) (codeTab C) (fun l => hP _) (fun k l => hC _)

/-- At the exact values the kernel program and the reference, run from memories that agree on the image and the
    codebook, both finite, end with the same image and the same penalty. -/
theorem algebraic : Cert.algebraic_KernelIdeal_ReferenceIdeal := by
  intro m ρ m' ρ' hpre hagree
  refine ⟨fun c => imageOf (recon m c), fun c => (fun _ => tiledPenalty (splitW (patchesAt m c) (codesAt m c))),
    Cert.KernelIdeal.Tail.run m ρ, ?_⟩
  refine (θ_run Cert.ReferenceIdeal.defs _ _).mono (fun _ h c => ?_) (Cert.ReferenceIdeal.Value.run (F := Ideal) m' ρ')
  obtain ⟨h1, h2, h3, h4⟩ := h c
  obtain ⟨hf0, hf1⟩ := Cert.Pre_finite_inputs.Finite.finite_of_pre _ _ (hpre c)
  have hP : ∀ i, ∃ r : ℝ, patchesAt m c i = (r : EReal) := fun i => by
    obtain ⟨j, e⟩ := patches_entry (m ((c.tc : Thread Cert.KernelIdeal.nD Cert.KernelIdeal.τ).loc Cert.KernelIdeal.main_arg0)) i
    obtain ⟨r, hr⟩ := hf0 j
    exact ⟨r, e.trans hr⟩
  have hC : ∀ i, ∃ r : ℝ, codesAt m c i = (r : EReal) := fun i => by
    obtain ⟨j, e⟩ := codes_entry (m ((c.tc : Thread Cert.KernelIdeal.nD Cert.KernelIdeal.τ).loc Cert.KernelIdeal.main_arg1)) i
    obtain ⟨r, hr⟩ := hf1 j
    exact ⟨r, e.trans hr⟩
  have hW := splitW_eq_distW (patchesAt m c) (codesAt m c) hP hC
  refine ⟨h1.trans ?_, h2.trans ?_, h3, h4⟩
  · rw [Cert.ReferenceIdeal.Read.val_main_v36_eq, (hagree c).1, (hagree c).2, image_eq, Cert.ReferenceIdeal.RefValue.recon_eq, patches_eq, codes_eq]
    exact congrArg (fun W => imageOf (reconOf W (codesAt m c))) hW.symm
  · rw [Cert.ReferenceIdeal.Read.val_main_v42_eq, (hagree c).1, (hagree c).2]
    funext i
    rw [Cert.ReferenceIdeal.RefValue.penalty_eq, patches_eq, codes_eq]
    exact ((tiledPenalty_eq_meanPenalty _).trans (congrArg meanPenalty hW)).symm

end Cert.Proof.Bridge

end
-- ==== Proof.lean ====
/- Soft vector quantisation of an image's 8 × 8 patches against a codebook, as a tiled kernel and as a plain reference:
   the claim that the two agree at exact arithmetic on finite inputs.

   The frames of the two kernel programs are the generated frame certificates; the reference's frame is its generated run
   with the results dropped.  The one rewrite of the idealisation, a round trip through a narrower float format read as the
   identity, is the library's statement of that rule.  The value claim is Proof/Bridge.lean: both programs compute, for every
   patch, softmax weights over the 256 codes and blend the codes with them; one takes the logits from the expanded squared
   distances, the other drops the row constant (a softmax does not see it) and takes the inner product in three passes over
   a high and a low part of each factor (at exact arithmetic the low part is `x − x`, zero on finite data); the penalty
   `∑ min (w, 1 − w)` is averaged in two arrangements of the same sum. -/
import proofs.«158663_j37005438222627_2_alg».proof.Defs
import proofs.«158663_j37005438222627_2_alg».proof.Proof.Gen.Kernel
import proofs.«158663_j37005438222627_2_alg».proof.Proof.Gen.Kernel.Skeleton
import proofs.«158663_j37005438222627_2_alg».proof.Proof.Gen.Kernel.Launch
import proofs.«158663_j37005438222627_2_alg».proof.Proof.Gen.Kernel.Points
import proofs.«158663_j37005438222627_2_alg».proof.Proof.Gen.Kernel.Frame
import proofs.«158663_j37005438222627_2_alg».proof.Proof.Gen.KernelIdeal
import proofs.«158663_j37005438222627_2_alg».proof.Proof.Gen.KernelIdeal.Skeleton
import proofs.«158663_j37005438222627_2_alg».proof.Proof.Gen.KernelIdeal.Launch
import proofs.«158663_j37005438222627_2_alg».proof.Proof.Gen.KernelIdeal.Points
import proofs.«158663_j37005438222627_2_alg».proof.Proof.Gen.KernelIdeal.Frame
import proofs.«158663_j37005438222627_2_alg».proof.Proof.Gen.ReferenceIdeal
import proofs.«158663_j37005438222627_2_alg».proof.Proof.Gen.ReferenceIdeal.Run
import proofs.«158663_j37005438222627_2_alg».proof.Proof.Gen.ReferenceIdeal.Read
import proofs.«158663_j37005438222627_2_alg».proof.Proof.Gen.Pre_finite_inputs
import proofs.«158663_j37005438222627_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  IdealRules.truncf_extf.statement _ .f32 .bf16,
  Cert.Proof.Bridge.algebraic⟩

end Cert.Proof

end
